-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x768 .f32) (main_arg1 : IVec S2x800000 32) (main_arg2 : FVec F S768x256 .f32) (main_arg3 : FVec F S256 .f32) (main_arg4 : FVec F S256x256 .f32) (main_arg5 : FVec F S256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x768 : Shape := ⟨2, ![2000, 768]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 64
  | .vmem => 15
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S768x256, .bf16⟩
  | .hbm, ⟨29, _⟩ => ⟨S256x256, .bf16⟩
  | .hbm, ⟨30, _⟩ => ⟨S50000x256, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x256, .f32⟩
  | .hbm, ⟨40, _⟩ => ⟨S_, .f32⟩
  | .hbm, ⟨41, _⟩ => ⟨S50000x256, .f32⟩
  | .hbm, ⟨42, _⟩ => ⟨S850000x1, .i32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .local _ .vmem, ⟨0, _⟩ => ⟨S2000x768, .f32⟩
  | .local _ .vmem, ⟨1, _⟩ => ⟨S2000x768, .f32⟩
  | .local _ .vmem, ⟨2, _⟩ => ⟨S768x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .bf16⟩
  | .local _ .vmem, ⟨13, _⟩ => ⟨S2000x256, .f32⟩
  | .local _ .vmem, ⟨14, _⟩ => ⟨S2000x256, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  inb_S2000x768_S2000x768_0_0 : ∀ a, (![0, 0] : Fin 2 → Nat) a + S2000x768.size a ≤ S2000x768.size a
  h_S2000x768 : 0 < S2000x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x256, .f32⟩
  | .hbm, ⟨115, _⟩ => ⟨S850000x1, .f32⟩
  | .hbm, ⟨116, _⟩ => ⟨S850000x256, .f32⟩
  | .hbm, ⟨117, _⟩ => ⟨S850000x256, .f32⟩
  | .hbm, ⟨118, _⟩ => ⟨S_, .f32⟩
  | .hbm, ⟨119, _⟩ => ⟨S50000x256, .f32⟩
  | .hbm, ⟨120, _⟩ => ⟨S850000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x768_S768x256_S50000x256_1_0_0_1_n_n_wf : DotDims.WF S50000x768 S768x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The two dense stages of a two-layer graph convolution, as whole-array functions over the extended reals.

  Both stages act on the node-feature matrix row by row. The first multiplies the features by a weight matrix and
  scales row `r` of the product by the entry `D r` of a column (the inverse square root of the node's degree). The
  second first rebuilds the previous layer's activation from an aggregated matrix — scale row `r` by `D r`, add the
  bias, clip at zero — then multiplies by the second weight matrix and scales row `r` by `D r` again.
  Also here: the row of a table of 50000 rows that a 32-bit start index names, read signed and clamped as a
  gather clamps it.
-/
import proofs.«139254_j68693706932806_2_alg».proof.KernelIdeal
import Idealize.ShloMosaic.Lib.ValueIdx
import Idealize.ShloMosaic.PureOps.Ideal

noncomputable section

open scoped BigOperators

namespace Cert.GCN

open Cert.KernelIdeal Idealize.ShloMosaic Idealize.ShloMosaic.ValueIdx

/-- The node a 32-bit start index names among 50000 rows: its signed value, clamped into `[0, 49999]`. -/
def row (w : BitVec 32) : Fin 50000 := ⟨min w.toInt.toNat 49999, by omega⟩

/-- A start index whose signed value is the number of a row names that row. -/
theorem row_of_toInt_eq (w : BitVec 32) (n : Fin 50000) (h : w.toInt = (n.val : Int)) : row w = n := by
  apply Fin.ext
  have := n.isLt
  show min w.toInt.toNat 49999 = n.val
  omega

/-- First dense stage at row `r`, column `e`: `(∑ k, X r k * W k e) * D r`. -/
def g0 (X : FVec Ideal S50000x768 .f32) (W : FVec Ideal S768x256 .bf16) (D : FVec Ideal S50000x1 .f32)
    (r : Fin 50000) (e : Fin 256) : EReal :=
  (∑ k : Fin 768, X (ix2 r k) * W (ix2 k e)) * D (ix2 r (0 : Fin 1))

/-- First dense stage as an array. -/
def G0 (X : FVec Ideal S50000x768 .f32) (W : FVec Ideal S768x256 .bf16) (D : FVec Ideal S50000x1 .f32) :
    FVec Ideal S50000x256 .f32 :=
  fun i => g0 X W D (i 0) (i 1)

theorem G0_apply (X : FVec Ideal S50000x768 .f32) (W : FVec Ideal S768x256 .bf16) (D : FVec Ideal S50000x1 .f32)
    (r : Fin 50000) (e : Fin 256) : G0 X W D (ix2 r e) = g0 X W D r e := rfl

/-- Second dense stage at row `r`, column `e`:
    `(∑ k, max (A r k * D r + B k) 0 * W k e) * D r`. -/
def g1 (A : FVec Ideal S50000x256 .f32) (D : FVec Ideal S50000x1 .f32) (B : FVec Ideal S1x256 .f32)
    (W : FVec Ideal S256x256 .bf16) (r : Fin 50000) (e : Fin 256) : EReal :=
  (∑ k : Fin 256, max (A (ix2 r k) * D (ix2 r (0 : Fin 1)) + B (ix2 (0 : Fin 1) k)) 0 * W (ix2 k e)) * D (ix2 r (0 : Fin 1))

/-- Second dense stage as an array. -/
def G1 (A : FVec Ideal S50000x256 .f32) (D : FVec Ideal S50000x1 .f32) (B : FVec Ideal S1x256 .f32)
    (W : FVec Ideal S256x256 .bf16) : FVec Ideal S50000x256 .f32 :=
  fun i => g1 A D B W (i 0) (i 1)

theorem G1_apply (A : FVec Ideal S50000x256 .f32) (D : FVec Ideal S50000x1 .f32) (B : FVec Ideal S1x256 .f32)
    (W : FVec Ideal S256x256 .bf16) (r : Fin 50000) (e : Fin 256) : G1 A D B W (ix2 r e) = g1 A D B W r e := rfl

end Cert.GCN

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibPlainMatmulFmt.lean ====
/-
  A plain matrix product read at an index, for operands of any float formats.

  At the ideal values every float format is the extended reals, so the product of an `M × K` matrix by a `K × N`
  matrix accumulated into the zero matrix is, at row `r` and column `e`, the sum over `k < K` of
  `lhs (r, k) * rhs (k, e)` whatever formats label the two operands (a kernel that narrows its operands to a
  16-bit format before the product is read by this form).
-/
import proofs.«139254_j68693706932806_2_alg».proof.Proof.LibPlainMatmul

noncomputable section

namespace Idealize.ShloMosaic.PlainMatmul

open Idealize.ShloMosaic Idealize.ShloMosaic.ValueIdx

/-- A plain product of operands of formats `φ₁`, `φ₂` into the zero matrix, at `(r, e)`: the sum over the inner axis
    of the operands' products. -/
theorem matmul_zero_apply_fmt {φ₁ φ₂ : FTy} (M K N : ℕ) (prec : Option ContractPrecision)
    (lhs : FVec Ideal ⟨2, ![M, K]⟩ φ₁) (rhs : FVec Ideal ⟨2, ![K, N]⟩ φ₂) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibKeepdims.lean ====
/-
  Column ("keepdims") layout operations read at an index given by coordinates.

  A reduction along the last axis of a matrix that keeps the reduced axis as a unit axis is printed as a shape cast of
  the `[a]` result to `[a, 1]` followed, where it is used against the matrix again, by a broadcast of the `[a, 1]`
  column to `[a, b]`. Both operations read the operand at the row of the index: the cast ignores the unit coordinate and
  the broadcast ignores the column coordinate. Stated over literal-size coordinates (`ix1`, `ix2`) so that a lemma
  applies to a printed operation by unification.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KRegion0.lean ====
/-
  The first dense stage of the graph convolution, read off the kernel's first grid of 25 points.

  Each point holds 2000 rows of the feature matrix, the whole weight matrix and the same 2000 entries of the scaling
  column, and leaves in its 2000 rows of the output the product of its feature rows with the weights, row `p` scaled by
  the column's entry `p`. First the body's arithmetic at one index of a block; then each window's block as rows of its
  array, what a point writes back as a block of the whole-array function `G0`, the blocks covering every row, and so
  the output array after the 25 points is `G0` of the three arrays the region found.
-/
import proofs.«139254_j68693706932806_2_alg».proof.Proof.Gen.KernelIdeal.Frame
import proofs.«139254_j68693706932806_2_alg».proof.Proof.Spec
import proofs.«139254_j68693706932806_2_alg».proof.Proof.LibPlainMatmulFmt
import proofs.«139254_j68693706932806_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.GCN Idealize.ShloMosaic Idealize.ShloMosaic.TcCoe Idealize.ShloMosaic.ValueIdx Idealize.SL.Sem
open Idealize.ShloMosaic.Pipeline (Dat)
open scoped BigOperators

/-- The body's arithmetic at row `p`, column `q` of its block: the row of the first operand against the column of
    the second (narrowing to 16 bits is the identity on extended reals), scaled by the row's entry of the column
    operand. -/
theorem pay_apply (x0 : Vec Ideal S2000x768 .f32) (x1 : Vec Ideal S768x256 .bf16) (x2 : Vec Ideal S2000x1 .f32)
    (p : Fin 2000) (q : Fin 256) :
    k0_pay1 (F := Ideal) x0 x1 x2 (ix2 p q)
      = (∑ k : Fin 768, x0 (ix2 p k) * x1 (ix2 k q)) * x2 (ix2 p (0 : Fin 1)) := by
  unfold k0_pay1
  rw [mulf_apply, shapeCast_self, shapeCast_self, broadcastTo_a1_ab_apply]
  refine congrArg (· * x2 (ix2 p (0 : Fin 1))) ?_
  refine (Idealize.ShloMosaic.PlainMatmul.matmul_zero_apply_fmt 2000 768 256 none (truncf .bf16 x0 bitsLt_bf16_f32) x1 p q).trans ?_
  rfl

/-! ## From the blocks to the array -/

/-- The origin of a rank-2 rectangle, as a constant function. -/
theorem origin_eq : (![0, 0] : Fin 2 → Nat) = fun _ => 0 := funext fun a => by fin_cases a <;> rfl

/-- The printed index maps, decided over the 25 points: the row-blocked windows (the features, the column, the output)
    sit at block row `t`, block column 0; the weight matrix is one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row of the output is SOME point's. -/
theorem block_rows_onto : ∀ q0 : Fin 25, ∃ t : Fin cfg0.N, win0_3.index t = ![q0.val, 0] :=
  (by decide +kernel : ∀ q0 : Fin 25, ∃ t : Fin grid0.N, win0_3.index t = ![q0.val, 0])

section Blocks
variable (V : (c : Dev nD) → (b : Ref sig .tc) → Buf (Elt Ideal) ((c : Thread nD τ).loc b)) (c : Dev nD)

/-- The feature window's block at point `t` is rows `2000 t … 2000 t + 1999` of the feature matrix. -/
theorem xblk_apply (t : Fin cfg0.N) (y : S2000x768.Idx) (k : S50000x768.Idx)
    (hk0 : (k 0).val = t.val * 2000 + (y 0).val) (hk1 : (k 1).val = (y 1).val) :
    (iblk0 (F := Ideal) V c 0 t : Vec Ideal S2000x768 .f32) y = (V c main_arg0 : FVec Ideal S50000x768 .f32) k := by
  obtain ⟨e0, e1, -⟩ := index_maps t
  unfold iblk0
  rw [View.read_apply]
  show V c main_arg0 _ = V c main_arg0 _
  refine congrArg _ (funext fun a => Fin.ext ?_)
  match a with
  | ⟨0, _⟩ => show win0_0.index t (0 : Fin 2) * 2000 + 1 * (y 0).val = (k 0).val; rw [e0, hk0]; omega
  | ⟨1, _⟩ => show win0_0.index t (1 : Fin 2) * 768 + 1 * (y 1).val = (k 1).val; rw [e1, hk1]; omega

/-- The weight window's block at any point is the whole weight matrix. -/
theorem wblk_apply (t : Fin cfg0.N) (y : S768x256.Idx) :
    (iblk0 (F := Ideal) V c 1 t : Vec Ideal S768x256 .bf16) y = (V c main_v16 : FVec Ideal S768x256 .bf16) y := by
  obtain ⟨-, -, e0, e1, -⟩ := index_maps t
  unfold iblk0
  rw [View.read_apply]
  show V c main_v16 _ = V c main_v16 _
  refine congrArg _ (funext fun a => Fin.ext ?_)
  match a with
  | ⟨0, _⟩ => show win0_1.index t (0 : Fin 2) * 768 + 1 * (y 0).val = (y 0).val; rw [e0]; omega
  | ⟨1, _⟩ => show win0_1.index t (1 : Fin 2) * 256 + 1 * (y 1).val = (y 1).val; rw [e1]; omega

/-- The column window's block at point `t` is entries `2000 t … 2000 t + 1999` of the column. -/
theorem dblk_apply (t : Fin cfg0.N) (y : S2000x1.Idx) (k : S50000x1.Idx)
    (hk0 : (k 0).val = t.val * 2000 + (y 0).val) (hk1 : (k 1).val = (y 1).val) :
    (iblk0 (F := Ideal) V c 2 t : Vec Ideal S2000x1 .f32) y = (V c main_v15 : FVec Ideal S50000x1 .f32) k := by
  obtain ⟨-, -, -, -, e0, e1, -⟩ := index_maps t
  unfold iblk0
  rw [View.read_apply]
  show V c main_v15 _ = V c main_v15 _
  refine congrArg _ (funext fun a => Fin.ext ?_)
  match a with
  | ⟨0, _⟩ => show win0_2.index t (0 : Fin 2) * 2000 + 1 * (y 0).val = (k 0).val; rw [e0, hk0]; omega
  | ⟨1, _⟩ => show win0_2.index t (1 : Fin 2) * 1 + 1 * (y 1).val = (k 1).val; rw [e1, hk1]; omega

end Blocks

/-- One point's arithmetic is the first dense stage at the rows of its block: if the three blocks hold rows
    `2000 b …` of the features and of the column and the whole weight matrix, the body's result at `j` is `G0` at the
    index `i` of row `2000 b + j 0`, column `j 1`. -/
theorem point_eq (X : FVec Ideal S50000x768 .f32) (W : FVec Ideal S768x256 .bf16) (D : FVec Ideal S50000x1 .f32)
    (x0 : Vec Ideal S2000x768 .f32) (x1 : Vec Ideal S768x256 .bf16) (x2 : Vec Ideal S2000x1 .f32) (b : ℕ)
    (h0 : ∀ (y : S2000x768.Idx) (k : S50000x768.Idx), (k 0).val = b * 2000 + (y 0).val → (k 1).val = (y 1).val → x0 y = X k)
    (h1 : ∀ y : S768x256.Idx, x1 y = W y)
    (h2 : ∀ (y : S2000x1.Idx) (k : S50000x1.Idx), (k 0).val = b * 2000 + (y 0).val → (k 1).val = (y 1).val → x2 y = D k)
    (j : S2000x256.Idx) (i : S50000x256.Idx) (hi0 : (i 0).val = b * 2000 + (j 0).val) (hi1 : (i 1).val = (j 1).val) :
    k0_pay1 (F := Ideal) x0 x1 x2 j = G0 X W D i := by
  obtain ⟨p, q, rfl⟩ : ∃ (p : Fin 2000) (q : Fin 256), j = ix2 p q := ⟨j 0, j 1, eq_ix2 j⟩
  obtain ⟨r, e, rfl⟩ : ∃ (r : Fin 50000) (e : Fin 256), i = ix2 r e := ⟨i 0, i 1, eq_ix2 i⟩
  have hr : r.val = b * 2000 + p.val := hi0
  obtain rfl : e = q := Fin.ext hi1
  rw [pay_apply, G0_apply]
  unfold g0
  rw [h2 (ix2 p (0 : Fin 1)) (ix2 r (0 : Fin 1)) hr rfl]
  refine congrArg (· * D (ix2 r (0 : Fin 1))) ?_
  refine Finset.sum_congr rfl fun k _ => ?_
  rw [h0 (ix2 p k) (ix2 r k) hr rfl, h1]

/-- WHAT POINT `t` WRITES BACK is block `t` of `G0` of the arrays as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (G0 (V c main_arg0) (V c main_v16) (V c main_v15)) := by
  show (cfg0.win 3).cut (grid0.coords t) ((dat0 (F := Ideal) V c).after 3 t) = _
  rw [after0_3]
  unfold out0_3
  rw [View.canon_unit_zero origin_eq]
  simp only [View.ld_unit_zero (S := S2000x768) origin_eq, View.ld_unit_zero (S := S768x256) origin_eq, View.ld_unit_zero (S := S2000x1) origin_eq]
  obtain ⟨-, -, -, -, -, -, e0, e1⟩ := index_maps t
  funext j
  refine point_eq (V c main_arg0) (V c main_v16) (V c main_v15) (iblk0 V c 0 t) (iblk0 V c 1 t) (iblk0 V c 2 t) t.val
    (xblk_apply V c t) (wblk_apply V c t) (dblk_apply V c t) j (((cfg0.win 3).blk t).view.emb j) ?_ ?_
  · show win0_3.index t (0 : Fin 2) * 2000 + 1 * (j 0).val = t.val * 2000 + (j 0).val
    rw [e0]; omega
  · show win0_3.index t (1 : Fin 2) * 256 + 1 * (j 1).val = (j 1).val
    rw [e1]; omega

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v18).slice (win0_3.rect t)).set ↔ _
  rw [View.set_slice_whole, Rect.mem_set_unit]
  exact Iff.rfl

/-- Every index of the output array is in some point's block: row `r` is in the block of point `r / 2000`. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_rows_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- Region 0's output array after the run: row r of x·W1 scaled by the column entry D r, for every row. -/
theorem final0 (V : (c : Dev nD) → (b : Ref sig .tc) → Buf (Elt Ideal) ((c : Thread nD τ).loc b)) (c : Dev nD) :
    (dat0 (F := Ideal) V c).arrAt 3 cfg0.N = G0 (V c main_arg0) (V c main_v16) (V c main_v15) :=
  (dat0 (F := Ideal) V c).arrAt_eq_of_cover 3 (G0 (V c main_arg0) (V c main_v16) (V c main_v15))
    (fun t _ => flushed_eq V c t) cover

end Cert.KernelIdeal.Region0

end
-- ==== Proof.KRegion1.lean ====
/-
  The second dense stage of the graph convolution, read off the kernel's second grid of 25 points.

  Each point holds 2000 rows of the first layer's aggregate, the same 2000 entries of the column of node factors, the
  bias row and the whole second weight matrix. It rebuilds the first layer's activation on its rows — scale row `p` by
  the column's entry `p`, add the bias, clip at zero —, multiplies by the weights and scales row `p` by the entry `p`
  again. First the body's arithmetic at one index of a block; then each window's block as rows of its array, what a
  point writes back as a block of the whole-array function `G1`, the blocks covering every row, and so the output
  array after the 25 points is `G1` of the four arrays the region found.
-/
import proofs.«139254_j68693706932806_2_alg».proof.Proof.Gen.KernelIdeal.Frame
import proofs.«139254_j68693706932806_2_alg».proof.Proof.Spec
import proofs.«139254_j68693706932806_2_alg».proof.Proof.LibPlainMatmulFmt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.GCN Idealize.ShloMosaic Idealize.ShloMosaic.TcCoe Idealize.ShloMosaic.ValueIdx Idealize.SL.Sem
open Idealize.ShloMosaic.Pipeline (Dat)
open scoped BigOperators

/-! ## The body's arithmetic at an index -/

/-- A column `[n, 1]` broadcast along the rows to `[n, m]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, column `q` of a block: the block's row rescaled by the column entry, the bias
    added, clipped at zero, multiplied into column `q` of the weights, and rescaled by the column entry again. -/
theorem pay_apply (a : Vec Ideal S2000x256 .f32) (d : Vec Ideal S2000x1 .f32) (b : Vec Ideal S1x256 .f32)
    (w : Vec Ideal S256x256 .bf16) (d' : Vec Ideal S2000x1 .f32) (p : Fin 2000) (q : Fin 256) :
    k1_pay1 (F := Ideal) a d b w d' (ix2 p q)
      = (∑ k : Fin 256, max (a (ix2 p k) * d (ix2 p (0 : Fin 1)) + b (ix2 (0 : Fin 1) k)) 0 * w (ix2 k q)) * d' (ix2 p (0 : Fin 1)) := by
  unfold k1_pay1
  simp only [shapeCast_self]
  rw [mulf_apply, broadcastTo_a1_ab_apply]
  refine congrArg (fun x => x * d' (ix2 p (0 : Fin 1))) ?_
  refine (PlainMatmul.matmul_zero_apply_fmt (φ₁ := .bf16) (φ₂ := .bf16) 2000 256 256 none _ (w : FVec Ideal S256x256 .bf16) p q).trans ?_
  refine Finset.sum_congr rfl fun k _ => ?_
  refine congrArg (fun x => x * w (ix2 k q)) ?_
  rw [truncf_apply, maximumf_apply, addf_apply, mulf_apply, broadcastTo_a1_ab_apply, broadcastTo_1b_ab_apply, broadcast_apply]
  show max _ (Ideal.ofBits .f32 0x00000000#32) = _
  rw [Ideal.ofBits_zero_f32]

/-! ## From the blocks to the array -/

/-- The zero offsets of a whole-buffer access, as the constant function. -/
theorem off_zero : (![0, 0] : Fin 2 → Nat) = fun _ => 0 := funext fun a => by fin_cases a <;> rfl

/-- The printed index maps, decided over the grid: at point `t` the feature block, the column block and the output block
    are block `t` along the rows, and the bias and the weights are whole. -/
theorem index_facts : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section Blocks

variable (V : (c : Dev nD) → (b : Ref sig .tc) → Buf (Elt Ideal) ((c : Thread nD τ).loc b))

/-- Row `p` of block `t` is a row of the array: `t * 2000 + p < 50000`. -/
theorem row_lt (t : Fin cfg1.N) (p : Fin 2000) : t.val * 2000 + p.val < 50000 := by
  have ht : t.val < 25 := (show t.val < grid1.N from t.isLt).trans_eq N_1
  have := p.isLt
  omega

/-- The feature block at point `t`, row `p`, is row `t * 2000 + p` of the feature array. -/
theorem blk0_apply (c : Dev nD) (t : Fin cfg1.N) (p : Fin 2000) (k : Fin 256) :
    iblk1 (F := Ideal) V c 0 t (ix2 p k) = (V c main_v28 : FVec Ideal S50000x256 .f32) (ix2 ⟨t.val * 2000 + p.val, row_lt t p⟩ k) := by
  obtain ⟨-, -, e0, e1, -⟩ := index_facts t
  show (V c main_v28 : FVec Ideal S50000x256 .f32) (((cfg1.win 0).blk t).view.emb (ix2 p k)) = _
  refine congrArg (V c main_v28 : FVec Ideal S50000x256 .f32) ?_
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- The column block at point `t`, row `p`, is row `t * 2000 + p` of the column. -/
theorem blk1_apply (c : Dev nD) (t : Fin cfg1.N) (p : Fin 2000) :
    iblk1 (F := Ideal) V c 1 t (ix2 p (0 : Fin 1)) = (V c main_v15 : FVec Ideal S50000x1 .f32) (ix2 ⟨t.val * 2000 + p.val, row_lt t p⟩ (0 : Fin 1)) := by
  obtain ⟨-, -, -, -, e0, e1, -⟩ := index_facts t
  show (V c main_v15 : FVec Ideal S50000x1 .f32) (((cfg1.win 1).blk t).view.emb (ix2 p (0 : Fin 1))) = _
  refine congrArg (V c main_v15 : FVec Ideal S50000x1 .f32) ?_
  funext a; apply Fin.ext
  match a with
  | ⟨0, _⟩ => show win1_1.index t (0 : Fin 2) * 2000 + 1 * p.val = t.val * 2000 + p.val; omega
  | ⟨1, _⟩ => show win1_1.index t (1 : Fin 2) * 1 + 1 * 0 = 0; omega

/-- The bias block at every point is the bias. -/
theorem blk2_apply (c : Dev nD) (t : Fin cfg1.N) (k : Fin 256) :
    iblk1 (F := Ideal) V c 2 t (ix2 (0 : Fin 1) k) = (V c main_v29 : FVec Ideal S1x256 .f32) (ix2 (0 : Fin 1) k) := by
  obtain ⟨-, -, -, -, -, -, e0, e1, -⟩ := index_facts t
  show (V c main_v29 : FVec Ideal S1x256 .f32) (((cfg1.win 2).blk t).view.emb (ix2 (0 : Fin 1) k)) = _
  refine congrArg (V c main_v29 : FVec Ideal S1x256 .f32) ?_
  funext a; apply Fin.ext
  match a with
  | ⟨0, _⟩ => show win1_2.index t (0 : Fin 2) * 1 + 1 * 0 = 0; omega
  | ⟨1, _⟩ => show win1_2.index t (1 : Fin 2) * 256 + 1 * k.val = k.val; omega

/-- The weight block at every point is the weight matrix. -/
theorem blk3_apply (c : Dev nD) (t : Fin cfg1.N) (k q : Fin 256) :
    iblk1 (F := Ideal) V c 3 t (ix2 k q) = (V c main_v17 : FVec Ideal S256x256 .bf16) (ix2 k q) := by
  obtain ⟨-, -, -, -, -, -, -, -, e0, e1⟩ := index_facts t
  show (V c main_v17 : FVec Ideal S256x256 .bf16) (((cfg1.win 3).blk t).view.emb (ix2 k q)) = _
  refine congrArg (V c main_v17 : FVec Ideal S256x256 .bf16) ?_
  funext a; apply Fin.ext
  match a with
  | ⟨0, _⟩ => show win1_3.index t (0 : Fin 2) * 256 + 1 * k.val = k.val; omega
  | ⟨1, _⟩ => show win1_3.index t (1 : Fin 2) * 256 + 1 * q.val = q.val; omega

/-- A block's contents at the staging buffer's index under a block index `j`: at `j`'s two coordinates. -/
theorem cut_apply (X : Vec Ideal S2000x256 .f32) (t : Fin cfg1.N) (j : ((cfg1.win 4).xblock (grid1.coords t)).Idx)
    (hp : (j 0).val < 2000) (hq : (j 1).val < 256) :
    (cfg1.win 4).cut (grid1.coords t) X j = X (ix2 ⟨(j 0).val, hp⟩ ⟨(j 1).val, hq⟩) := by
  show X _ = X _
  refine congrArg X ?_
  funext a
  match a with
  | ⟨0, _⟩ => rfl
  | ⟨1, _⟩ => rfl

/-- The output block at point `t` read off an array: at row `t * 2000 + p`, column `q`. -/
theorem read_blk4_apply (G : FVec Ideal S50000x256 .f32) (t : Fin cfg1.N) (j : ((cfg1.win 4).xblock (grid1.coords t)).Idx)
    (hp : (j 0).val < 2000) (hq : (j 1).val < 256) :
    ((cfg1.win 4).blk t).view.read (Elt Ideal) G j = G (ix2 ⟨t.val * 2000 + (j 0).val, row_lt t ⟨(j 0).val, hp⟩⟩ ⟨(j 1).val, hq⟩) := by
  obtain ⟨e0, e1, -⟩ := index_facts t
  rw [View.read_apply]
  refine congrArg G ?_
  funext a; apply Fin.ext
  match a with
  | ⟨0, _⟩ => show win1_4.index t (0 : Fin 2) * 2000 + 1 * (j 0).val = t.val * 2000 + (j 0).val; omega
  | ⟨1, _⟩ => show win1_4.index t (1 : Fin 2) * 256 + 1 * (j 1).val = (j 1).val; omega

/-- WHAT POINT `t` WRITES BACK is block `t` of the second dense stage of the arrays as the region finds them. -/
theorem flushed_eq (c : Dev nD) (t : Fin cfg1.N) :
    (dat1 (F := Ideal) V c).flushed 4 t
      = ((cfg1.win 4).blk t).view.read (Elt Ideal) (G1 (V c main_v28) (V c main_v15) (V c main_v29) (V c main_v17)) := by
  show (cfg1.win 4).cut (grid1.coords t) ((dat1 (F := Ideal) V c).after 4 t) = _
  rw [after1_4]
  unfold out1_4
  rw [View.canon_unit_zero off_zero]
  simp only [View.ld_unit_zero (S := S2000x256) off_zero, View.ld_unit_zero (S := S2000x1) off_zero,
    View.ld_unit_zero (S := S1x256) off_zero, View.ld_unit_zero (S := S256x256) off_zero]
  funext j
  have hp : (j 0).val < 2000 := (j 0).isLt
  have hq : (j 1).val < 256 := (j 1).isLt
  rw [cut_apply _ t j hp hq, read_blk4_apply _ t j hp hq, pay_apply, G1_apply]
  unfold g1
  simp only [blk0_apply, blk1_apply, blk2_apply, blk3_apply]

/-- An index of the array is in point `t`'s block iff each coordinate is in the block's range on its axis. -/
theorem mem_blk4 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v30).slice (win1_4.rect t)).set ↔ _
  rw [View.set_slice_whole, Rect.mem_set_unit]
  exact Iff.rfl

/-- THE COVER: row `r` of the array is in the block of point `r / 2000`, which writes back. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : grid1.N = 25 := N_1
  obtain ⟨t, ht⟩ : ∃ t : Fin cfg1.N, t.val = (i 0).val / 2000 :=
    ⟨⟨(i 0).val / 2000, by show (i 0).val / 2000 < grid1.N; omega⟩, rfl⟩
  obtain ⟨e0, e1, -⟩ := index_facts t
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

end Blocks

/-- Region 1's output array after the run: the second dense stage of every row. -/
theorem final1 (V : (c : Dev nD) → (b : Ref sig .tc) → Buf (Elt Ideal) ((c : Thread nD τ).loc b)) (c : Dev nD) :
    (dat1 (F := Ideal) V c).arrAt 4 cfg1.N = G1 (V c main_v28) (V c main_v15) (V c main_v29) (V c main_v17) :=
  (dat1 (F := Ideal) V c).arrAt_eq_of_cover 4 (G1 (V c main_v28) (V c main_v15) (V c main_v29) (V c main_v17))
    (fun t _ => flushed_eq V c t) cover

end Cert.KernelIdeal.Region1

end
-- ==== Proof.KRun.lean ====
/-
  The kernel program's run with its result named.

  Every weakly fair execution of the program terminates without a fault; in the final state the result buffer holds
  what the last stretch of host operations leaves there (the fold `W7` of the program's segments over the launch
  memory, read at the result's buffer), and the six argument arrays are as launched.
-/
import proofs.«139254_j68693706932806_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's seven segments from the launch: the last thread state holds every unscoped buffer at the
    last boundary's contents, read against the final state at the result buffer and at each argument. -/
theorem run_value : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gen

end
-- ==== Proof.KHost.lean ====
/-
  The kernel program's result buffer as one function of the six argument arrays.

  The program's run is a fold of seven segments over the launch memory: three stretches of host operations that build
  the message index arrays and the normalising vector (the same operations, on the same operands, as the reference's:
  each array is identified with the reference's staged value of the same name), the first dense stage (a kernel region),
  a stretch that gathers the scaled rows along the messages and sums them per destination, the second dense stage
  (a kernel region), and a last stretch that gathers and sums again, scales each row by its node's factor and adds the
  bias. Each lemma below reads one buffer at one segment boundary: a buffer a stretch does not write keeps its
  contents; a buffer it writes holds the operation's value of its operands' contents; a region's output array holds
  the dense stage of the region's input arrays (the two hypotheses `h0`, `h1`, proved per region elsewhere).
-/
import proofs.«139254_j68693706932806_2_alg».proof.Proof.KRun
import proofs.«139254_j68693706932806_2_alg».proof.Proof.RefReadP
import proofs.«139254_j68693706932806_2_alg».proof.Proof.Spec
import Idealize.ShloMosaic.Lib.StableHlo.Run

set_option maxRecDepth 16384

noncomputable section

namespace Cert.KernelIdeal.KV

open Cert.KernelIdeal Cert.KernelIdeal.Gen Cert.GCN Idealize.ShloMosaic Idealize.ShloMosaic.TcCoe Idealize.SL.Sem
open Idealize.ShloMosaic.StableHlo
open Cert.ReferenceIdeal.ReadP (val_main_v6 val_main_v7 val_main_v15 val_main_v36 val_main_v42 val_main_v41)

/-! ## The result as a function of the arguments -/

/-- The normalising vector as a column. -/
def D (x1 : IVec S2x800000 32) : FVec Ideal S50000x1 .f32 :=
  shapeCast S50000x1 (val_main_v15 (F := Ideal) x1) shapeCasts_S50000_S50000x1

/-- Gather the rows of `H` along the messages' sources and sum them per destination node. -/
def gs (H : FVec Ideal S50000x256 .f32) (x1 : IVec S2x800000 32) : FVec Ideal S50000x256 .f32 :=
  Host.scatterAdd scatter_S50000x256_S850000x1_S850000x256_1_0_0_1 (val_main_v41 (F := Ideal)) (val_main_v42 (F := Ideal) x1)
    (Host.gather gather_S50000x256_S850000x1_S850000x256_1_0_n_n_0_1_1256 H (val_main_v36 (F := Ideal) x1))

/-- The first weight matrix narrowed to the 16-bit format (the identity on the extended reals). -/
def T1 (x2 : FVec Ideal S768x256 .f32) : FVec Ideal S768x256 .bf16 := truncf .bf16 x2 bitsLt_bf16_f32
/-- The second weight matrix narrowed to the 16-bit format. -/
def T2 (x4 : FVec Ideal S256x256 .f32) : FVec Ideal S256x256 .bf16 := truncf .bf16 x4 bitsLt_bf16_f32

/-- The first dense stage of the node features. -/
def H1 (x0 : FVec Ideal S50000x768 .f32) (x1 : IVec S2x800000 32) (x2 : FVec Ideal S768x256 .f32) : FVec Ideal S50000x256 .f32 :=
  G0 x0 (T1 x2) (D x1)

/-- The second dense stage of the first layer's aggregate. -/
def H2 (x0 : FVec Ideal S50000x768 .f32) (x1 : IVec S2x800000 32) (x2 : FVec Ideal S768x256 .f32) (x3 : FVec Ideal S256 .f32)
    (x4 : FVec Ideal S256x256 .f32) : FVec Ideal S50000x256 .f32 :=
  G1 (gs (H1 x0 x1 x2) x1) (D x1) (shapeCast S1x256 x3 shapeCasts_S256_S1x256) (T2 x4)

/-- The program's result: the second aggregate, each row scaled by its node's factor, plus the second bias. -/
def KOut (x0 : FVec Ideal S50000x768 .f32) (x1 : IVec S2x800000 32) (x2 : FVec Ideal S768x256 .f32) (x3 : FVec Ideal S256 .f32)
    (x4 : FVec Ideal S256x256 .f32) (x5 : FVec Ideal S256 .f32) : FVec Ideal S50000x256 .f32 :=
  addf (mulf (gs (H2 x0 x1 x2 x3 x4) x1) (broadcastInDim S50000x256 ![0, 1] bcast_S50000x1_S50000x256_0_1 (D x1)))
    (broadcastInDim S50000x256 ![0, 1] bcast_S1x256_S50000x256_0_1 (broadcastInDim S1x256 ![1] bcast_S256_S1x256_1 x5))

/-! ## The buffers at the segment boundaries -/

/-- A buffer that no operation of a stretch writes keeps its contents. -/
macro "passthru" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ### After the first stretch (the index arrays, the degree, its comparison and its inverse square root) -/

set_option maxHeartbeats 2000000 in
theorem W1_v5 : W1 (F := Ideal) m ρ c (Proc.devRef .tc main_v5) = val_main_v6 (F := Ideal) (m ((c.tc : Thread nD τ).loc main_arg1)) := by
  show StableHlo.after hostOps0 (W0 m ρ c) (Proc.devRef .tc main_v5) = _
  simp only [hostOps0]; after_results; rfl
set_option maxHeartbeats 2000000 in
theorem W1_v6 : W1 (F := Ideal) m ρ c (Proc.devRef .tc main_v6) = val_main_v7 (F := Ideal) (m ((c.tc : Thread nD τ).loc main_arg1)) := by
  show StableHlo.after hostOps0 (W0 m ρ c) (Proc.devRef .tc main_v6) = _
  simp only [hostOps0]; after_results; rfl
set_option maxHeartbeats 4000000 in
theorem W1_v12 : W1 (F := Ideal) m ρ c (Proc.devRef .tc main_v12) = Cert.ReferenceIdeal.ReadP.val_main_v13 (F := Ideal) (m ((c.tc : Thread nD τ).loc main_arg1)) := by
  show StableHlo.after hostOps0 (W0 m ρ c) (Proc.devRef .tc main_v12) = _
  simp only [hostOps0]; after_results; rfl
set_option maxHeartbeats 4000000 in
theorem W1_v13 : W1 (F := Ideal) m ρ c (Proc.devRef .tc main_v13) = Cert.ReferenceIdeal.ReadP.val_main_v14 (F := Ideal) (m ((c.tc : Thread nD τ).loc main_arg1)) := by
  show StableHlo.after hostOps0 (W0 m ρ c) (Proc.devRef .tc main_v13) = _
  simp only [hostOps0]; after_results; rfl
theorem W1_cst_2 : W1 (F := Ideal) m ρ c (Proc.devRef .tc main_cst_2) = constant (F := Ideal) S_ .f32 0x00000000#32 := by
  show StableHlo.after hostOps0 (W0 m ρ c) (Proc.devRef .tc main_cst_2) = _
  simp only [hostOps0]; after_results
theorem W1_arg0 : W1 (F := Ideal) m ρ c (Proc.devRef .tc main_arg0) = (m ((c.tc : Thread nD τ).loc main_arg0)) := by
  show StableHlo.after hostOps0 (W0 m ρ c) (Proc.devRef .tc main_arg0) = W0 m ρ c (Proc.devRef .tc main_arg0); passthru hostOps0
theorem W1_arg2 : W1 (F := Ideal) m ρ c (Proc.devRef .tc main_arg2) = (m ((c.tc : Thread nD τ).loc main_arg2)) := by
  show StableHlo.after hostOps0 (W0 m ρ c) (Proc.devRef .tc main_arg2) = W0 m ρ c (Proc.devRef .tc main_arg2); passthru hostOps0
theorem W1_arg3 : W1 (F := Ideal) m ρ c (Proc.devRef .tc main_arg3) = (m ((c.tc : Thread nD τ).loc main_arg3)) := by
  show StableHlo.after hostOps0 (W0 m ρ c) (Proc.devRef .tc main_arg3) = W0 m ρ c (Proc.devRef .tc main_arg3); passthru hostOps0
theorem W1_arg4 : W1 (F := Ideal) m ρ c (Proc.devRef .tc main_arg4) = (m ((c.tc : Thread nD τ).loc main_arg4)) := by
  show StableHlo.after hostOps0 (W0 m ρ c) (Proc.devRef .tc main_arg4) = W0 m ρ c (Proc.devRef .tc main_arg4); passthru hostOps0
theorem W1_arg5 : W1 (F := Ideal) m ρ c (Proc.devRef .tc main_arg5) = (m ((c.tc : Thread nD τ).loc main_arg5)) := by
  show StableHlo.after hostOps0 (W0 m ρ c) (Proc.devRef .tc main_arg5) = W0 m ρ c (Proc.devRef .tc main_arg5); passthru hostOps0

/-! ### After the guard (the normalising vector) -/

/-- The guard over any contents: the select of the comparison, the inverse square root and the broadcast zero. -/
theorem guard_step (Wp : Valuation τ sig (Elt Ideal)) :
    StableHlo.after (hostOps0_1 (F := Ideal)) Wp (Proc.devRef .tc main_v14)
      = select (Wp (Proc.devRef .tc main_v12)) (Wp (Proc.devRef .tc main_v13))
          (broadcastInDim S50000 ![] bcast_S_S50000 (id (Wp (Proc.devRef .tc main_cst_2)))) := by
  simp only [hostOps0_1]; after_results; rfl
theorem W2_v14 : W2 (F := Ideal) m ρ c (Proc.devRef .tc main_v14) = val_main_v15 (F := Ideal) (m ((c.tc : Thread nD τ).loc main_arg1)) := by
  refine (guard_step (W1 m ρ c)).trans ?_
  rw [W1_v12, W1_v13, W1_cst_2]; rfl
theorem W2_of_W1 (b : Ref sig .tc) (hb : b ≠ main_call0_v0 ∧ b ≠ main_call0_v1 ∧ b ≠ main_v14) :
    W2 (F := Ideal) m ρ c (Proc.devRef .tc b) = W1 (F := Ideal) m ρ c (Proc.devRef .tc b) := by
  show StableHlo.after hostOps0_1 (W1 m ρ c) (Proc.devRef .tc b) = _
  refine StableHlo.after_of_forall_not_mem _ _ (List.forall_iff_forall_mem.mp ?_)
  simp only [hostOps0_1, List.Forall, StableHlo.TRef.unary, StableHlo.TRef.ternary, StableHlo.unary_writes, StableHlo.ternary_writes, Finset.mem_singleton]
  exact ⟨StableHlo.devRef_ne_of_ne hb.1, StableHlo.devRef_ne_of_ne hb.2.1, StableHlo.devRef_ne_of_ne hb.2.2⟩

/-! ### At the first region's entry -/

theorem entry_step_v15 (Wp : Valuation τ sig (Elt Ideal)) :
    StableHlo.after (hostOps0_2 (F := Ideal)) Wp (Proc.devRef .tc main_v15)
      = shapeCast S50000x1 (Wp (Proc.devRef .tc main_v14)) shapeCasts_S50000_S50000x1 := by
  simp only [hostOps0_2]; after_results; rfl
theorem entry_step_v16 (Wp : Valuation τ sig (Elt Ideal)) :
    StableHlo.after (hostOps0_2 (F := Ideal)) Wp (Proc.devRef .tc main_v16)
      = T1 (Wp (Proc.devRef .tc main_arg2)) := by
  simp only [hostOps0_2]; after_results; rfl
theorem entry_step_v17 (Wp : Valuation τ sig (Elt Ideal)) :
    StableHlo.after (hostOps0_2 (F := Ideal)) Wp (Proc.devRef .tc main_v17)
      = T2 (Wp (Proc.devRef .tc main_arg4)) := by
  simp only [hostOps0_2]; after_results; rfl

theorem W3_v15 : W3 (F := Ideal) m ρ c (Proc.devRef .tc main_v15) = D (m ((c.tc : Thread nD τ).loc main_arg1)) := by
  refine (entry_step_v15 (W2 m ρ c)).trans ?_
  rw [W2_v14]; rfl
theorem W3_v16 : W3 (F := Ideal) m ρ c (Proc.devRef .tc main_v16) = T1 (m ((c.tc : Thread nD τ).loc main_arg2)) := by
  refine (entry_step_v16 (W2 m ρ c)).trans ?_
  rw [W2_of_W1 m ρ c main_arg2 (by decide), W1_arg2]
theorem W3_v17 : W3 (F := Ideal) m ρ c (Proc.devRef .tc main_v17) = T2 (m ((c.tc : Thread nD τ).loc main_arg4)) := by
  refine (entry_step_v17 (W2 m ρ c)).trans ?_
  rw [W2_of_W1 m ρ c main_arg4 (by decide), W1_arg4]
theorem W3_arg0 : W3 (F := Ideal) m ρ c (Proc.devRef .tc main_arg0) = (m ((c.tc : Thread nD τ).loc main_arg0)) := by
  have e3 : W3 (F := Ideal) m ρ c (Proc.devRef .tc main_arg0) = W2 (F := Ideal) m ρ c (Proc.devRef .tc main_arg0) := by
    show StableHlo.after hostOps0_2 (W2 m ρ c) (Proc.devRef .tc main_arg0) = _; passthru hostOps0_2
  rw [e3, W2_of_W1 m ρ c main_arg0 (by decide), W1_arg0]
theorem W3_arg3 : W3 (F := Ideal) m ρ c (Proc.devRef .tc main_arg3) = (m ((c.tc : Thread nD τ).loc main_arg3)) := by
  have e3 : W3 (F := Ideal) m ρ c (Proc.devRef .tc main_arg3) = W2 (F := Ideal) m ρ c (Proc.devRef .tc main_arg3) := by
    show StableHlo.after hostOps0_2 (W2 m ρ c) (Proc.devRef .tc main_arg3) = _; passthru hostOps0_2
  rw [e3, W2_of_W1 m ρ c main_arg3 (by decide), W1_arg3]
theorem W3_arg5 : W3 (F := Ideal) m ρ c (Proc.devRef .tc main_arg5) = (m ((c.tc : Thread nD τ).loc main_arg5)) := by
  have e3 : W3 (F := Ideal) m ρ c (Proc.devRef .tc main_arg5) = W2 (F := Ideal) m ρ c (Proc.devRef .tc main_arg5) := by
    show StableHlo.after hostOps0_2 (W2 m ρ c) (Proc.devRef .tc main_arg5) = _; passthru hostOps0_2
  rw [e3, W2_of_W1 m ρ c main_arg5 (by decide), W1_arg5]
theorem W3_v5 : W3 (F := Ideal) m ρ c (Proc.devRef .tc main_v5) = val_main_v6 (F := Ideal) (m ((c.tc : Thread nD τ).loc main_arg1)) := by
  have e3 : W3 (F := Ideal) m ρ c (Proc.devRef .tc main_v5) = W2 (F := Ideal) m ρ c (Proc.devRef .tc main_v5) := by
    show StableHlo.after hostOps0_2 (W2 m ρ c) (Proc.devRef .tc main_v5) = _; passthru hostOps0_2
  rw [e3, W2_of_W1 m ρ c main_v5 (by decide), W1_v5]
theorem W3_v6 : W3 (F := Ideal) m ρ c (Proc.devRef .tc main_v6) = val_main_v7 (F := Ideal) (m ((c.tc : Thread nD τ).loc main_arg1)) := by
  have e3 : W3 (F := Ideal) m ρ c (Proc.devRef .tc main_v6) = W2 (F := Ideal) m ρ c (Proc.devRef .tc main_v6) := by
    show StableHlo.after hostOps0_2 (W2 m ρ c) (Proc.devRef .tc main_v6) = _; passthru hostOps0_2
  rw [e3, W2_of_W1 m ρ c main_v6 (by decide), W1_v6]

/-! ### The first region, the middle stretch, the second region, the last stretch -/

variable (h0 : ∀ (V : (c : Dev nD) → (b : Ref sig .tc) → Buf (Elt Ideal) ((c : Thread nD τ).loc b)) (c : Dev nD),
    (dat0 (F := Ideal) V c).arrAt 3 cfg0.N = G0 (V c main_arg0) (V c main_v16) (V c main_v15))
variable (h1 : ∀ (V : (c : Dev nD) → (b : Ref sig .tc) → Buf (Elt Ideal) ((c : Thread nD τ).loc b)) (c : Dev nD),
    (dat1 (F := Ideal) V c).arrAt 4 cfg1.N = G1 (V c main_v28) (V c main_v15) (V c main_v29) (V c main_v17))

include h0 in
/-- The first region's output array is the first dense stage of the arguments. -/
theorem W4_v18 : W4 (F := Ideal) m ρ c (Proc.devRef .tc main_v18) = H1 (m ((c.tc : Thread nD τ).loc main_arg0)) (m ((c.tc : Thread nD τ).loc main_arg1)) (m ((c.tc : Thread nD τ).loc main_arg2)) := by
  refine (W4_arr m ρ c 3).trans ((h0 (V3 m ρ) c).trans ?_)
  show G0 (W3 m ρ c (Proc.devRef .tc main_arg0)) (W3 m ρ c (Proc.devRef .tc main_v16)) (W3 m ρ c (Proc.devRef .tc main_v15)) = _
  rw [W3_arg0, W3_v16, W3_v15]; rfl

include h0 in
set_option maxHeartbeats 4000000 in
/-- The first aggregate. -/
theorem W5_v28 : W5 (F := Ideal) m ρ c (Proc.devRef .tc main_v28) = gs (H1 (m ((c.tc : Thread nD τ).loc main_arg0)) (m ((c.tc : Thread nD τ).loc main_arg1)) (m ((c.tc : Thread nD τ).loc main_arg2))) (m ((c.tc : Thread nD τ).loc main_arg1)) := by
  show StableHlo.after hostOps1 (W4 m ρ c) (Proc.devRef .tc main_v28) = _
  simp only [hostOps1]; after_results
  rw [W4_v18 m ρ c h0, W4_of_ne m ρ c main_v5 (by decide), W4_of_ne m ρ c main_v6 (by decide), W3_v5, W3_v6]; rfl
theorem W5_v29 : W5 (F := Ideal) m ρ c (Proc.devRef .tc main_v29) = shapeCast S1x256 (m ((c.tc : Thread nD τ).loc main_arg3)) shapeCasts_S256_S1x256 := by
  show StableHlo.after hostOps1 (W4 m ρ c) (Proc.devRef .tc main_v29) = _
  simp only [hostOps1]; after_results
  rw [W4_of_ne m ρ c main_arg3 (by decide), W3_arg3]; rfl
/-- The column of factors is an input of the first region: the region leaves it as entered. -/
theorem W4_v15 : W4 (F := Ideal) m ρ c (Proc.devRef .tc main_v15) = D (m ((c.tc : Thread nD τ).loc main_arg1)) :=
  ((W4_arr m ρ c 2).trans (((dat0 (V3 m ρ) c).arrAt_in 2 rfl _).trans (A_eq0 (V3 m ρ) c 2))).trans (W3_v15 m ρ c)
theorem W5_v15 : W5 (F := Ideal) m ρ c (Proc.devRef .tc main_v15) = D (m ((c.tc : Thread nD τ).loc main_arg1)) := by
  have e5 : W5 (F := Ideal) m ρ c (Proc.devRef .tc main_v15) = W4 (F := Ideal) m ρ c (Proc.devRef .tc main_v15) := by
    show StableHlo.after hostOps1 (W4 m ρ c) (Proc.devRef .tc main_v15) = _; passthru hostOps1
  rw [e5, W4_v15]
/-- It is an input of the second region too. -/
theorem W6_v15 : W6 (F := Ideal) m ρ c (Proc.devRef .tc main_v15) = D (m ((c.tc : Thread nD τ).loc main_arg1)) :=
  ((W6_arr m ρ c 1).trans (((dat1 (V5 m ρ) c).arrAt_in 1 rfl _).trans (A_eq1 (V5 m ρ) c 1))).trans (W5_v15 m ρ c)
theorem W5_v17 : W5 (F := Ideal) m ρ c (Proc.devRef .tc main_v17) = T2 (m ((c.tc : Thread nD τ).loc main_arg4)) := by
  have e5 : W5 (F := Ideal) m ρ c (Proc.devRef .tc main_v17) = W4 (F := Ideal) m ρ c (Proc.devRef .tc main_v17) := by
    show StableHlo.after hostOps1 (W4 m ρ c) (Proc.devRef .tc main_v17) = _; passthru hostOps1
  rw [e5, W4_of_ne m ρ c main_v17 (by decide), W3_v17]
theorem W5_v5 : W5 (F := Ideal) m ρ c (Proc.devRef .tc main_v5) = val_main_v6 (F := Ideal) (m ((c.tc : Thread nD τ).loc main_arg1)) := by
  have e5 : W5 (F := Ideal) m ρ c (Proc.devRef .tc main_v5) = W4 (F := Ideal) m ρ c (Proc.devRef .tc main_v5) := by
    show StableHlo.after hostOps1 (W4 m ρ c) (Proc.devRef .tc main_v5) = _; passthru hostOps1
  rw [e5, W4_of_ne m ρ c main_v5 (by decide), W3_v5]
theorem W5_v6 : W5 (F := Ideal) m ρ c (Proc.devRef .tc main_v6) = val_main_v7 (F := Ideal) (m ((c.tc : Thread nD τ).loc main_arg1)) := by
  have e5 : W5 (F := Ideal) m ρ c (Proc.devRef .tc main_v6) = W4 (F := Ideal) m ρ c (Proc.devRef .tc main_v6) := by
    show StableHlo.after hostOps1 (W4 m ρ c) (Proc.devRef .tc main_v6) = _; passthru hostOps1
  rw [e5, W4_of_ne m ρ c main_v6 (by decide), W3_v6]
theorem W5_arg5 : W5 (F := Ideal) m ρ c (Proc.devRef .tc main_arg5) = (m ((c.tc : Thread nD τ).loc main_arg5)) := by
  have e5 : W5 (F := Ideal) m ρ c (Proc.devRef .tc main_arg5) = W4 (F := Ideal) m ρ c (Proc.devRef .tc main_arg5) := by
    show StableHlo.after hostOps1 (W4 m ρ c) (Proc.devRef .tc main_arg5) = _; passthru hostOps1
  rw [e5, W4_of_ne m ρ c main_arg5 (by decide), W3_arg5]

include h0 h1 in
/-- The second region's output array is the second dense stage of the first aggregate. -/
theorem W6_v30 : W6 (F := Ideal) m ρ c (Proc.devRef .tc main_v30) = H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 4).trans ((h1 (V5 m ρ) c).trans ?_)
  show G1 (W5 m ρ c (Proc.devRef .tc main_v28)) (W5 m ρ c (Proc.devRef .tc main_v15)) (W5 m ρ c (Proc.devRef .tc main_v29))
    (W5 m ρ c (Proc.devRef .tc main_v17)) = _
  rw [W5_v28 m ρ c h0, W5_v15, W5_v29, W5_v17]; rfl

include h0 h1 in
set_option maxHeartbeats 4000000 in
/-- The result buffer after the last stretch. -/
theorem W7_v45 : W7 (F := Ideal) m ρ c (Proc.devRef .tc main_v45)
    = KOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W6 m ρ c) (Proc.devRef .tc main_v45) = _
  simp only [hostOps2]; after_results
  rw [W6_v30 m ρ c h0 h1, W6_of_ne m ρ c main_v5 (by decide), W6_of_ne m ρ c main_v6 (by decide), W6_v15,
    W6_of_ne m ρ c main_arg5 (by decide), W5_v5, W5_v6, W5_arg5]; rfl

include h0 h1 in
/-- THE KERNEL PROGRAM'S RUN: every weakly fair execution terminates, nothing faults, the result buffer holds
    `KOut` of the argument arrays and the arguments are unchanged. -/
theorem run : θ_run (defs (F := Ideal)) (onTc (τ := τ) (main (F := Ideal))) ⟨m, fun _ => 0, ρ⟩ (fun r => ∀ c : Dev nD,
      r.2.mem ((c.tc : Thread nD τ).loc main_v45) = KOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v45 m ρ c h0 h1), (h c).2⟩) (run_value m ρ)

end Cert.KernelIdeal.KV

end
-- ==== Proof.Formula.lean ====
/-
  The aggregation step of a graph convolution, index by index, over the extended reals.

  There are 850000 messages (the 800000 edges and one self-loop per node). Message `e` lands on the node whose number
  is the signed value of the scatter index `dC[e, 0]` (a message whose index is no node's number lands nowhere), and
  carries the feature row of the node `row (sC[e, 0])` that its gather index names. The reference scales each message by
  the product of the normalising factors of its source and destination nodes before summing and then adds the bias
  (`refLayer`); the kernel program sums already-scaled rows (`agg`) and scales the sum afterwards.
-/
import proofs.«139254_j68693706932806_2_alg».proof.Proof.Spec

noncomputable section

open scoped BigOperators

namespace Cert.GCN

open Cert.KernelIdeal Idealize.ShloMosaic Idealize.ShloMosaic.ValueIdx

/-- The sum over the messages landing on node `n` of the value `f e` the message carries. -/
def agg (dC : IVec S850000x1 32) (n : Fin 50000) (f : Fin 850000 → EReal) : EReal :=
  ∑ e : Fin 850000, if (dC (ix2 e (0 : Fin 1))).toInt = (n.val : Int) then f e else 0

/-- One layer as the reference arranges it: at node `n`, channel `k`, the sum over the messages landing on `n` of the
    source row's feature `H` times (factor of the source × factor of the destination), plus the bias. The source is
    named by `sC` for the feature and by `sC'` for its factor, the destination's factor by `dN`. -/
def refLayer (dC sC sC' dN : IVec S850000x1 32) (dv : FVec Ideal S50000 .f32) (H : Fin 50000 → Fin 256 → EReal)
    (bias : FVec Ideal S256 .f32) (n : Fin 50000) (k : Fin 256) : EReal :=
  agg dC n (fun e => H (row (sC (ix2 e (0 : Fin 1)))) k
      * (dv (ix1 (row (sC' (ix2 e (0 : Fin 1))))) * dv (ix1 (row (dN (ix2 e (0 : Fin 1))))))) + bias (ix1 k)

end Cert.GCN

end
-- ==== Proof.Algebra.lean ====
/-
  The one law of the extended reals that joins the two arrangements of a graph convolution's normalisation, and
  the bounds on the normalising factor that the law needs.
-/
import Idealize.ShloMosaic.PureOps.Ideal

noncomputable section

open scoped BigOperators

namespace Cert.GCN

open Idealize.ShloMosaic

/-- A factor `c` with `0 ≤ c < ⊤` distributes over any finite sum of extended reals (multiplying by a nonnegative real
    is additive on the extended reals, whatever infinities the terms hold). -/
theorem sum_mul_of_nonneg_ne_top {ι : Type*} (s : Finset ι) (f : ι → EReal) (c : EReal) (hc0 : 0 ≤ c) (hct : c ≠ ⊤) :
    (∑ e ∈ s, f e) * c = ∑ e ∈ s, f e * c := by
  classical
  induction s using Finset.induction_on with
  | empty => simp
  | insert a s ha ih =>
    rw [Finset.sum_insert ha, Finset.sum_insert ha, EReal.right_distrib_of_nonneg_of_ne_top hc0 hct, ih]

/-- Scaling after the aggregation is scaling each message: with `p e` "message `e` lands on this node", `h e` the
    message's feature, `a e` the factor of its source and `g e` a factor that equals `c` on the messages that land here,
    `(∑ e, [p e] h e * a e) * c = ∑ e, [p e] h e * (a e * g e)`. -/
theorem scatter_scale {ι : Type*} [Fintype ι] (p : ι → Prop) [DecidablePred p] (h a g : ι → EReal) (c : EReal)
    (hc0 : 0 ≤ c) (hct : c ≠ ⊤) (hg : ∀ e, p e → g e = c) :
    (∑ e, if p e then h e * a e else 0) * c = ∑ e, if p e then h e * (a e * g e) else 0 := by
  rw [sum_mul_of_nonneg_ne_top _ _ c hc0 hct]
  refine Finset.sum_congr rfl (fun e _ => ?_)
  by_cases hp : p e
  · rw [if_pos hp, if_pos hp, hg e hp, mul_assoc]
  · rw [if_neg hp, if_neg hp, zero_mul]

/-- The guarded inverse square root `if 0 < y then 1/√y else 0` of any extended real lies in `[0, ⊤)`. -/
theorem guarded_rsqrt_bounds (y : EReal) :
    0 ≤ (if 0 < y then Ideal.rsqrt y else 0) ∧ (if 0 < y then Ideal.rsqrt y else 0) ≠ ⊤ := by
  by_cases hy : 0 < y
  · rw [if_pos hy]
    induction y using EReal.rec with
    | bot => exact absurd hy (by simp)
    | top => simp
    | coe r =>
      have hr : 0 < r := by exact_mod_cast hy
      rw [Ideal.rsqrt_coe, if_neg (not_lt.2 hr.le), if_neg hr.ne']
      refine ⟨?_, EReal.coe_ne_top _⟩
      exact_mod_cast inv_nonneg.2 (Real.sqrt_nonneg r)
  · rw [if_neg hy]
    exact ⟨le_refl _, EReal.zero_ne_top⟩

end Cert.GCN

end
-- ==== Proof.LibGatherRows.lean ====
/-
  A gather of whole rows, or of whole columns, of a rank-2 array, read at an index.

  The operand is a table `[M, C]` (one row per position, `C` channels) or its transpose `[C, M]`; the start indices are
  an `[N, 1]` array of integers, one position per result row (column). Every result element is the operand's element
  in the same channel at the position the start index names, the start index read as a signed integer and clamped
  into `[0, M − 1]` as the gather clamps every start index. The argument is the one for a rank-1 operand: per operand
  axis the operand index is the clamped start plus the batching coordinate plus the offset coordinate; the collapsed
  axis carries the start alone, and the kept axis — the channel — carries the result's own offset coordinate alone.
-/
import Idealize.ShloMosaic.Lib.ValueIdx

noncomputable section

namespace Cert.Proof.LibGatherRows

open Idealize.ShloMosaic Idealize.ShloMosaic.ValueIdx

variable {α : Type}

/-! ## Words: the signed reading of a word that is not negative -/

/-- A word whose signed reading is nonnegative has that reading equal to its unsigned one. -/
theorem toInt_toNat_of_nonneg {w : Nat} (b : BitVec w) (h0 : 0 ≤ b.toInt) : b.toInt.toNat = b.toNat := by
  have h := BitVec.toInt_eq_toNat_cond b
  have hlt := b.isLt
  split at h <;> omega

/-- A word whose signed reading lies in `[0, M)` has its unsigned reading below `M`. -/
theorem toNat_lt_of_toInt {w M : Nat} (b : BitVec w) (h0 : 0 ≤ b.toInt) (hlt : b.toInt < (M : Int)) : b.toNat < M := by
  have := toInt_toNat_of_nonneg b h0
  omega

/-- A signed reading in `[0, M)` is its own clamp into `[0, M − 1]`: `min (toInt.toNat) (M − 1) = toNat`. -/
theorem clamp_eq_toNat {w M : Nat} (b : BitVec w) (h0 : 0 ≤ b.toInt) (hlt : b.toInt < (M : Int)) :
    min b.toInt.toNat (M - 1) = b.toNat := by
  have := toInt_toNat_of_nonneg b h0
  omega

/-! ## Rows: operand `[M, C]`, start indices `[N, 1]`, result `[N, C]` -/

section Rows

/-- The dimension numbers of a gather of whole rows: operand `[M, C]`, start indices `[N, 1]`, result `[N, C]`; offset
    axis 1 (the channel, kept whole: slice sizes `[1, C]`), collapsed axis 0, start index map `[0]`, index vector on
    axis 1. Their conditions `wf` are decided on a program's literal shapes. -/
abbrev rowDims (M N C : Nat)
    (wf : GatherDims.WF ⟨2, ![M, C]⟩ ⟨2, ![N, 1]⟩ ⟨2, ![N, C]⟩ [1] [0] [] [0] [] 1 ![1, C]) :
    GatherDims ⟨2, ![M, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather at `(n, c)` is the operand at `(r, c)` for ANY row `r` whose number is the start index `idx[n, 0]`
    read signed and clamped into `[0, M − 1]`: on axis 0 (collapsed) the operand index is the clamped start alone, on
    axis 1 (kept) it is the result's offset coordinate `c` alone. -/
theorem gather_rows_at {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) (r : Fin M)
    (hr : r.val = min (idx (ix2 n 0)).toInt.toNat (M - 1)) :
    Host.gather (rowDims M N C wf) x idx (ix2 n c) = x (ix2 r c) := by
  unfold Host.gather
  congr 1
  funext a
  refine Fin.ext ?_
  have h10 : ¬ ((1 : Fin 2) = 0) := by decide
  match a with
  | ⟨0, _⟩ =>
    show (rowDims M N C wf).start (ix2 n c) idx 0 + (rowDims M N C wf).batchCoord (ix2 n c) 0
      + (rowDims M N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims M N C wf).startIndexMap from List.mem_singleton.mpr rfl)]
    have hsi : (rowDims M N C wf).siIdx (ix2 n c) ⟨List.idxOf (0 : Fin 2) (rowDims M N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm
  | ⟨1, _⟩ =>
    show (rowDims M N C wf).start (ix2 n c) idx 1 + (rowDims M N C wf).batchCoord (ix2 n c) 1
      + (rowDims M N C wf).offCoord (ix2 n c) 1 = _
    have hk : (1 : Fin 2) ∈ (rowDims M N C wf).sKept :=
      (GatherDims.mem_sKept _ _).mpr ⟨fun h => h10 (List.mem_singleton.mp h), List.not_mem_nil⟩
    rw [GatherDims.batchCoord_eq_zero _ _ _ List.not_mem_nil]
    unfold GatherDims.start GatherDims.offCoord
    rw [dif_neg (show (1 : Fin 2) ∉ (rowDims M N C wf).startIndexMap from fun h => h10 (List.mem_singleton.mp h)),
      dif_pos hk]
    simp only [Nat.add_zero, Nat.zero_add]
    rfl

/-- THE ROW GATHER READ AT `(n, c)`: the operand at row `idx[n, 0]`, read signed and clamped into `[0, M − 1]`, and
    column `c`. -/
theorem gather_rows_apply {M N C w : Nat} (hM : 0 < M)
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) :
    Host.gather (rowDims M N C wf) x idx (ix2 n c)
      = x (ix2 ⟨min (idx (ix2 n 0)).toInt.toNat (M - 1), by omega⟩ c) :=
  gather_rows_at wf x idx n c _ rfl

/-- When the start index `idx[n, 0]` read signed IS the number of a row `r`, the row gather at `(n, c)` is the operand
    at `(r, c)`: a row number is its own clamp. -/
theorem gather_rows_apply_of_toInt_eq {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) (r : Fin M)
    (hr : (idx (ix2 n 0)).toInt = (r.val : Int)) :
    Host.gather (rowDims M N C wf) x idx (ix2 n c) = x (ix2 r c) :=
  gather_rows_at wf x idx n c r (by have := r.isLt; omega)

/-- When the start index `idx[n, 0]` read signed lies in `[0, M)` the clamp disappears: the row gather at `(n, c)` is
    the operand at row `idx[n, 0]` read unsigned and column `c`. -/
theorem gather_rows_apply_of_lt {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C)
    (h0 : 0 ≤ (idx (ix2 n 0)).toInt) (hlt : (idx (ix2 n 0)).toInt < (M : Int)) :
    Host.gather (rowDims M N C wf) x idx (ix2 n c)
      = x (ix2 ⟨(idx (ix2 n 0)).toNat, toNat_lt_of_toInt _ h0 hlt⟩ c) :=
  gather_rows_at wf x idx n c _ (clamp_eq_toNat _ h0 hlt).symm

end Rows

/-! ## Columns: operand `[C, M]`, start indices `[N, 1]`, result `[C, N]` -/

section Cols

/-- The dimension numbers of a gather of whole columns: operand `[C, M]`, start indices `[N, 1]`, result `[C, N]`;
    offset axis 0 (the channel, kept whole: slice sizes `[C, 1]`), collapsed axis 1, start index map `[1]`, index
    vector on axis 1. Their conditions `wf` are decided on a program's literal shapes. -/
abbrev colDims (M N C : Nat)
    (wf : GatherDims.WF ⟨2, ![C, M]⟩ ⟨2, ![N, 1]⟩ ⟨2, ![C, N]⟩ [0] [1] [] [1] [] 1 ![C, 1]) :
    GatherDims ⟨2, ![C, M]⟩ ⟨2, ![N, 1]⟩ ⟨2, ![C, N]⟩ where
  offsetDims := [0]
  collapsedSliceDims := [1]
  operandBatchingDims := []
  startIndicesBatchingDims := []
  startIndexMap := [1]
  indexVectorDim := 1
  sliceSizes := ![C, 1]
  wf := wf

/-- The column gather at `(c, n)` is the operand at `(c, r)` for ANY column `r` whose number is the start index
    `idx[n, 0]` read signed and clamped into `[0, M − 1]`: on axis 0 (kept) the operand index is the result's offset
    coordinate `c` alone, on axis 1 (collapsed) it is the clamped start alone. -/
theorem gather_cols_at {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) (r : Fin M)
    (hr : r.val = min (idx (ix2 n 0)).toInt.toNat (M - 1)) :
    Host.gather (colDims M N C wf) x idx (ix2 c n) = x (ix2 c r) := by
  unfold Host.gather
  congr 1
  funext a
  refine Fin.ext ?_
  have h01 : ¬ ((0 : Fin 2) = 1) := by decide
  match a with
  | ⟨0, _⟩ =>
    show (colDims M N C wf).start (ix2 c n) idx 0 + (colDims M N C wf).batchCoord (ix2 c n) 0
      + (colDims M N C wf).offCoord (ix2 c n) 0 = _
    have hk : (0 : Fin 2) ∈ (colDims M N C wf).sKept :=
      (GatherDims.mem_sKept _ _).mpr ⟨fun h => h01 (List.mem_singleton.mp h), List.not_mem_nil⟩
    rw [GatherDims.batchCoord_eq_zero _ _ _ List.not_mem_nil]
    unfold GatherDims.start GatherDims.offCoord
    rw [dif_neg (show (0 : Fin 2) ∉ (colDims M N C wf).startIndexMap from fun h => h01 (List.mem_singleton.mp h)),
      dif_pos hk]
    simp only [Nat.add_zero, Nat.zero_add]
    rfl
  | ⟨1, _⟩ =>
    show (colDims M N C wf).start (ix2 c n) idx 1 + (colDims M N C wf).batchCoord (ix2 c n) 1
      + (colDims M N C wf).offCoord (ix2 c n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims M N C wf).startIndexMap from List.mem_singleton.mpr rfl)]
    have hsi : (colDims M N C wf).siIdx (ix2 c n) ⟨List.idxOf (1 : Fin 2) (colDims M N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm

/-- THE COLUMN GATHER READ AT `(c, n)`: the operand at row `c` and column `idx[n, 0]`, read signed and clamped into
    `[0, M − 1]`. -/
theorem gather_cols_apply {M N C w : Nat} (hM : 0 < M)
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) :
    Host.gather (colDims M N C wf) x idx (ix2 c n)
      = x (ix2 c ⟨min (idx (ix2 n 0)).toInt.toNat (M - 1), by omega⟩) :=
  gather_cols_at wf x idx c n _ rfl

/-- When the start index `idx[n, 0]` read signed IS the number of a column `r`, the column gather at `(c, n)` is the
    operand at `(c, r)`: a column number is its own clamp. -/
theorem gather_cols_apply_of_toInt_eq {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) (r : Fin M)
    (hr : (idx (ix2 n 0)).toInt = (r.val : Int)) :
    Host.gather (colDims M N C wf) x idx (ix2 c n) = x (ix2 c r) :=
  gather_cols_at wf x idx c n r (by have := r.isLt; omega)

/-- When the start index `idx[n, 0]` read signed lies in `[0, M)` the clamp disappears: the column gather at `(c, n)`
    is the operand at row `c` and column `idx[n, 0]` read unsigned. -/
theorem gather_cols_apply_of_lt {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N)
    (h0 : 0 ≤ (idx (ix2 n 0)).toInt) (hlt : (idx (ix2 n 0)).toInt < (M : Int)) :
    Host.gather (colDims M N C wf) x idx (ix2 c n)
      = x (ix2 c ⟨(idx (ix2 n 0)).toNat, toNat_lt_of_toInt _ h0 hlt⟩) :=
  gather_cols_at wf x idx c n _ (clamp_eq_toNat _ h0 hlt).symm

end Cols

end Cert.Proof.LibGatherRows

end
-- ==== Proof.LibGatherFlat.lean ====
/-
  A gather from a flat (rank-1) array at an `[M, 1]` array of start indices, read at one position.
-/
import Idealize.ShloMosaic.Lib.ValueIdx

noncomputable section

namespace Cert.Lib

open Idealize.ShloMosaic Idealize.ShloMosaic.ValueIdx

variable {α : Type}

/-- The dimension numbers of `x[idx]` for a flat `x : [N]` and `idx : [M, 1]`: no offset axes, collapsed axis 0, start
    index map `[0]`, the index vector on axis 1, slice sizes `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT POSITION `e`: the operand at the start index `idx[e, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e (0 : Fin 1))).toInt.toNat (N - 1), by omega⟩) := by
  unfold Host.gather
  congr 1
  funext a
  refine Fin.ext ?_
  match a with
  | ⟨0, _⟩ =>
    -- the operand's one axis is collapsed and not a batching axis: the operand index on it is the clamped start alone
    show (flatGatherDims N M wf).start (ix1 e) idx 0 + (flatGatherDims N M wf).batchCoord (ix1 e) 0
      + (flatGatherDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGatherDims N M wf).startIndexMap from List.mem_singleton.mpr rfl)]
    -- result position `e` reads its start index at position `(e, 0)` of the start indices
    have hsi : (flatGatherDims N M wf).siIdx (ix1 e)
        ⟨List.idxOf (0 : Fin 1) (flatGatherDims N M wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibScatterRows.lean ====
/-
  The accumulating scatter of the host program of whole rows into a table, read at one entry.

  The dimension numbers are those of `table.at[row_idx].add(rows)`: the operand `[N, C]` has its axis 0 as an
  inserted window axis and the one axis the scatter indices address, and its axis 1 as the target of the updates' one
  window axis (the channel); the scatter indices are an `[M, 1]` array whose second axis holds the (one-component)
  index vector. Update element `(j, k')` therefore lands at the operand entry `(idx[j, 0], k')` (the index read
  signed) when that row is inside `[0, N)`, and is dropped otherwise. At the ideal instance the scatter adds, to
  each operand entry, the exact sum of the update elements landing on it.
-/
import Idealize.ShloMosaic.PureOps
import Idealize.ShloMosaic.PureOps.Ideal
import Idealize.ShloMosaic.Lib.ValueIdx

noncomputable section

open scoped BigOperators

namespace Cert.Lib

open Idealize.ShloMosaic Idealize.ShloMosaic.ValueIdx

/-- The dimension numbers of a scatter of `M` rows of `C` channels into a table `[N, C]` at an `[M, 1]` index array:
    update window axis 1 (the channel), inserted window axis 0, the scatter indices address operand axis 0, the index
    vector on axis 1. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ :=
  ⟨[1], [0], [0], 1, wf⟩

/-- On the operand's row axis, update element `(j, k')` reads its start at position `(j, 0)` of the scatter indices,
    signed. -/
theorem rows_start0 {N M C w : Nat} (wf : ScatterDims.WF ⟨2, ![N, C]⟩ ⟨2, ![M, 1]⟩ ⟨2, ![M, C]⟩ [1] [0] [0] 1)
    (idx : IVec ⟨2, ![M, 1]⟩ w) (j : Fin M) (k' : Fin C) :
    (rowScatterDims N M C wf).start (ix2 j k') idx 0 = (idx (ix2 j (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 j k')
      ⟨List.idxOf (0 : Fin 2) (rowScatterDims N M C wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's channel axis is not addressed by the scatter indices: the start on it is `0`. -/
theorem rows_start1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (rowScatterDims N M C wf).start j idx 1 = 0 := by
  unfold ScatterDims.start
  rw [dif_neg]
  intro h
  have h2 : (1 : Nat) = 0 := congrArg Fin.val (List.mem_singleton.1 h)
  exact absurd h2 (by decide)

/-- The operand's row axis is an inserted one: the window coordinate on it is `0`. -/
theorem rows_window0 {N M C : Nat} (wf : ScatterDims.WF ⟨2, ![N, C]⟩ ⟨2, ![M, 1]⟩ ⟨2, ![M, C]⟩ [1] [0] [0] 1)
    (j : (⟨2, ![M, C]⟩ : Shape).Idx) : (rowScatterDims N M C wf).window j 0 = 0 := by
  unfold ScatterDims.window
  rw [dif_neg]
  intro h
  have h2 := (List.mem_filter.1 h).2
  simp at h2

/-- On the operand's channel axis the window coordinate is the update element's channel. -/
theorem rows_window1 {N M C : Nat} (wf : ScatterDims.WF ⟨2, ![N, C]⟩ ⟨2, ![M, 1]⟩ ⟨2, ![M, C]⟩ [1] [0] [0] 1)
    (j : Fin M) (k' : Fin C) : (rowScatterDims N M C wf).window (ix2 j k') 1 = k'.val := by
  unfold ScatterDims.window
  rw [dif_pos (show (1 : Fin 2) ∈ (rowScatterDims N M C wf).sKept from
    List.mem_filter.2 ⟨List.mem_finRange _, by simp⟩)]
  rfl

/-- Update element `(j, k')` lands on operand entry `(p, k)` exactly when the signed value of `idx[j, 0]` is `p` and
    the channels agree. -/
theorem rows_resultIdx?_eq_some_iff {N M C w : Nat}
    (wf : ScatterDims.WF ⟨2, ![N, C]⟩ ⟨2, ![M, 1]⟩ ⟨2, ![M, C]⟩ [1] [0] [0] 1)
    (idx : IVec ⟨2, ![M, 1]⟩ w) (j : Fin M) (k' : Fin C) (p : Fin N) (k : Fin C) :
    (rowScatterDims N M C wf).resultIdx? (ix2 j k') idx = some (ix2 p k)
      ↔ (idx (ix2 j (0 : Fin 1))).toInt = (p.val : Int) ∧ k' = k := by
  have hs0 := rows_start0 wf idx j k'
  have hs1 := rows_start1 wf idx (ix2 j k')
  have hw0 := rows_window0 wf (ix2 j k')
  have hw1 := rows_window1 wf j k'
  unfold ScatterDims.resultIdx?
  constructor
  · intro h
    split at h
    · rename_i hall
      have h1 := Option.some.inj h
      have h20 : ((rowScatterDims N M C wf).start (ix2 j k') idx 0
          + ((rowScatterDims N M C wf).window (ix2 j k') 0 : Nat)).toNat = p.val :=
        congrArg (fun f => (f 0).val) h1
      have h21 : ((rowScatterDims N M C wf).start (ix2 j k') idx 1
          + ((rowScatterDims N M C wf).window (ix2 j k') 1 : Nat)).toNat = k.val :=
        congrArg (fun f => (f 1).val) h1
      have h3 := (hall 0).1
      rw [hs0, hw0] at h20 h3
      rw [hs1, hw1] at h21
      refine ⟨by omega, Fin.ext (by omega)⟩
    · exact absurd h (by simp)
  · rintro ⟨h, rfl⟩
    have hall : ∀ a, 0 ≤ (rowScatterDims N M C wf).start (ix2 j k') idx a
          + ((rowScatterDims N M C wf).window (ix2 j k') a : Nat) ∧
        (rowScatterDims N M C wf).start (ix2 j k') idx a + ((rowScatterDims N M C wf).window (ix2 j k') a : Nat)
          < ((⟨2, ![N, C]⟩ : Shape).size a : Nat) := by
      rw [Fin.forall_fin_two]
      have hp : p.val < N := p.isLt
      have hk : k'.val < C := k'.isLt
      have hN : ((⟨2, ![N, C]⟩ : Shape).size 0 : Nat) = N := rfl
      have hC : ((⟨2, ![N, C]⟩ : Shape).size 1 : Nat) = C := rfl
      rw [hs0, hw0, hs1, hw1, h, hN, hC]
      omega
    rw [dif_pos hall]
    congr 1
    funext a
    refine Fin.ext ?_
    match a with
    | ⟨0, _⟩ =>
      show ((rowScatterDims N M C wf).start (ix2 j k') idx 0
        + ((rowScatterDims N M C wf).window (ix2 j k') 0 : Nat)).toNat = p.val
      rw [hs0, hw0, h]
      omega
    | ⟨1, _⟩ =>
      show ((rowScatterDims N M C wf).start (ix2 j k') idx 1
        + ((rowScatterDims N M C wf).window (ix2 j k') 1 : Nat)).toNat = k'.val
      rw [hs1, hw1]
      omega

/-- THE ROW SCATTER-ADD READ AT `(p, k)`, at the ideal instance: the operand's entry plus the sum, over all `M` update
    rows, of channel `k` of those rows whose index `idx[j, 0]` (read as a signed integer) equals `p`. -/
theorem hostScatterAdd_rows_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (k : Fin C) :
    Ideal.hostScatterAdd (rowScatterDims N M C wf) x idx upd (ix2 p k)
      = x (ix2 p k) + ∑ j : Fin M, if (idx (ix2 j (0 : Fin 1))).toInt = (p.val : Int) then upd (ix2 j k) else 0 := by
  show x (ix2 p k) + ∑ j ∈ Finset.univ.filter
    (fun j => (rowScatterDims N M C wf).resultIdx? j idx = some (ix2 p k)), upd j = _
  congr 1
  rw [Finset.sum_filter, sum_idx2]
  refine Finset.sum_congr rfl (fun j _ => ?_)
  by_cases h : (idx (ix2 j (0 : Fin 1))).toInt = (p.val : Int)
  · rw [if_pos h, Finset.sum_eq_single k]
    · rw [if_pos ((rows_resultIdx?_eq_some_iff wf idx j k p k).2 ⟨h, rfl⟩)]
    · intro k' _ hk'
      rw [if_neg (fun h' => hk' ((rows_resultIdx?_eq_some_iff wf idx j k' p k).1 h').2)]
    · intro hk
      exact absurd (Finset.mem_univ k) hk
  · rw [if_neg h]
    refine Finset.sum_eq_zero (fun k' _ => ?_)
    rw [if_neg (fun h' => h ((rows_resultIdx?_eq_some_iff wf idx j k' p k).1 h').1)]

end Cert.Lib

end
-- ==== Proof.RefAt.lean ====
/-
  The reference's result read at one node and one channel.

  The reference is a straight line of host operations; its staged values (one per operation) are read at an index one
  operation at a time. Per layer: a message's feature is the source row of the dense product (a row gather), its weight
  the product of the normalising vector at its source and at its destination (two flat gathers), the layer's result at
  a node the sum of the weighted messages landing on it (an accumulating row scatter into zeros) plus the bias. The
  first layer's result is clipped at zero and multiplied by the second weight matrix before the second layer. The
  index arrays and the normalising vector are never opened: they stay the reference's own staged values.
-/
import proofs.«139254_j68693706932806_2_alg».proof.Proof.RefReadP
import proofs.«139254_j68693706932806_2_alg».proof.Proof.Formula
import proofs.«139254_j68693706932806_2_alg».proof.Proof.Algebra
import proofs.«139254_j68693706932806_2_alg».proof.Proof.LibGatherRows
import proofs.«139254_j68693706932806_2_alg».proof.Proof.LibGatherFlat
import proofs.«139254_j68693706932806_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.At

open Cert.ReferenceIdeal Cert.ReferenceIdeal.ReadP Cert.GCN Cert.Lib Idealize.ShloMosaic Idealize.ShloMosaic.ValueIdx

/-- The accumulating row scatter into a table that is zero at `(n, k)`, read at `(n, k)`: the sum over the messages
    landing on node `n` of channel `k` of the message. -/
theorem scatter_read (dC : IVec S850000x1 32) (z : FVec Ideal S50000x256 .f32) (upd : FVec Ideal S850000x256 .f32)
    (f : Fin 850000 → EReal) (n : Fin 50000) (k : Fin 256)
    (hz : z (ix2 n k) = 0) (hupd : ∀ e : Fin 850000, upd (ix2 e k) = f e) :
    Host.scatterAdd scatter_S50000x256_S850000x1_S850000x256_1_0_0_1 z dC upd (ix2 n k) = agg dC n f := by
  refine (hostScatterAdd_rows_apply scatter_S50000x256_S850000x1_S850000x256_1_0_0_1.wf z dC upd n k).trans ?_
  rw [hz, zero_add]
  unfold agg
  refine Finset.sum_congr rfl fun e _ => ?_
  rw [hupd]

/-- The row gather at `(e, k)`: the table at the row the start index `sC[e, 0]` names, column `k`. -/
theorem rows_read (H : FVec Ideal S50000x256 .f32) (sC : IVec S850000x1 32) (e : Fin 850000) (k : Fin 256) :
    Host.gather gather_S50000x256_S850000x1_S850000x256_1_0_n_n_0_1_1256 H sC (ix2 e k)
      = H (ix2 (row (sC (ix2 e (0 : Fin 1)))) k) :=
  Cert.Proof.LibGatherRows.gather_rows_apply (by decide)
    gather_S50000x256_S850000x1_S850000x256_1_0_n_n_0_1_1256.wf H sC e k

/-- The flat gather at `e`: the vector at the entry the start index `s[e, 0]` names. -/
theorem flat_read (dv : FVec Ideal S50000 .f32) (s : IVec S850000x1 32) (e : Fin 850000) :
    Host.gather gather_S50000_S850000x1_S850000_n_0_n_n_0_1_1 dv s (ix1 e)
      = dv (ix1 (row (s (ix2 e (0 : Fin 1))))) :=
  gather_flat_apply (by decide) gather_S50000_S850000x1_S850000_n_0_n_n_0_1_1.wf dv s e

/-- The first dense stage at `(r, k)`: row `r` of the features times column `k` of the first weight matrix. -/
theorem v4_read (x0 : FVec Ideal S50000x768 .f32) (x2 : FVec Ideal S768x256 .f32) (r : Fin 50000) (k : Fin 256) :
    val_main_v4 (F := Ideal) x0 x2 (ix2 r k) = ∑ i : Fin 768, x0 (ix2 r i) * x2 (ix2 i k) := by
  rw [val_main_v4_apply]
  refine Finset.sum_congr rfl fun i _ => ?_
  have hl : lidx_main_v4 (ix2 r k) i = ix2 r i := by
    funext a; match a with
    | ⟨0, _⟩ => rfl
    | ⟨1, _⟩ => rfl
  have hr : ridx_main_v4 (ix2 r k) i = ix2 i k := by
    funext a; match a with
    | ⟨0, _⟩ => rfl
    | ⟨1, _⟩ => rfl
  rw [hl, hr]

/-- A first-layer message at channel `k`: the source row's feature times the factors of the two end nodes. -/
theorem msg1_read (x0 : FVec Ideal S50000x768 .f32) (x1 : IVec S2x800000 32) (x2 : FVec Ideal S768x256 .f32)
    (e : Fin 850000) (k : Fin 256) :
    val_main_v40 (F := Ideal) x0 x1 x2 (ix2 e k)
      = val_main_v4 (F := Ideal) x0 x2 (ix2 (row (val_main_v36 (F := Ideal) x1 (ix2 e (0 : Fin 1)))) k)
        * (val_main_v15 (F := Ideal) x1 (ix1 (row (val_main_v21 (F := Ideal) x1 (ix2 e (0 : Fin 1)))))
          * val_main_v15 (F := Ideal) x1 (ix1 (row (val_main_v28 (F := Ideal) x1 (ix2 e (0 : Fin 1)))))) := by
  rw [val_main_v40_apply, Ideal.mulf_def, val_main_v39_apply, val_main_v38_apply, val_main_v30_apply, Ideal.mulf_def]
  have hi : idx_main_v38 (idx_main_v39 (ix2 e k)) = ix1 e := by
    funext a; match a with
    | ⟨0, _⟩ => rfl
  rw [hi]
  unfold val_main_v37 val_main_v22 val_main_v29
  rw [rows_read, flat_read, flat_read]

/-- The first layer at `(r, k)`. -/
theorem layer1_read (x0 : FVec Ideal S50000x768 .f32) (x1 : IVec S2x800000 32) (x2 : FVec Ideal S768x256 .f32)
    (x3 : FVec Ideal S256 .f32) (r : Fin 50000) (k : Fin 256) :
    val_main_v46 (F := Ideal) x0 x1 x2 x3 (ix2 r k)
      = refLayer (val_main_v42 (F := Ideal) x1) (val_main_v36 (F := Ideal) x1) (val_main_v21 (F := Ideal) x1)
          (val_main_v28 (F := Ideal) x1) (val_main_v15 (F := Ideal) x1)
          (fun r' k' => ∑ i : Fin 768, x0 (ix2 r' i) * x2 (ix2 i k')) x3 r k := by
  rw [val_main_v46_apply, Ideal.addf_def, val_main_v45_apply, val_main_v44_apply]
  have hb : idx_main_v44 (idx_main_v45 (ix2 r k)) = ix1 k := by
    funext a; match a with
    | ⟨0, _⟩ => rfl
  rw [hb]
  unfold refLayer
  refine congrArg (fun t => t + x3 (ix1 k)) ?_
  unfold val_main_v43
  refine scatter_read _ _ _ _ r k ?_ fun e => ?_
  · rw [val_main_v41_apply, val_main_cst_8_apply, Ideal.ofBits_def, Ideal.ofBits_zero_f32]
  · rw [msg1_read, v4_read]

/-- The second dense stage at `(r, j)`: row `r` of the first layer's result, clipped at zero, times column `j` of the
    second weight matrix. -/
theorem v48_read (x0 : FVec Ideal S50000x768 .f32) (x1 : IVec S2x800000 32) (x2 : FVec Ideal S768x256 .f32)
    (x3 : FVec Ideal S256 .f32) (x4 : FVec Ideal S256x256 .f32) (r : Fin 50000) (j : Fin 256) :
    val_main_v48 (F := Ideal) x0 x1 x2 x3 x4 (ix2 r j)
      = ∑ k : Fin 256,
          max (refLayer (val_main_v42 (F := Ideal) x1) (val_main_v36 (F := Ideal) x1) (val_main_v21 (F := Ideal) x1)
                (val_main_v28 (F := Ideal) x1) (val_main_v15 (F := Ideal) x1)
                (fun r' k' => ∑ i : Fin 768, x0 (ix2 r' i) * x2 (ix2 i k')) x3 r k) 0
            * x4 (ix2 k j) := by
  rw [val_main_v48_apply]
  refine Finset.sum_congr rfl fun k _ => ?_
  have hl : lidx_main_v48 (ix2 r j) k = ix2 r k := by
    funext a; match a with
    | ⟨0, _⟩ => rfl
    | ⟨1, _⟩ => rfl
  have hr : ridx_main_v48 (ix2 r j) k = ix2 k j := by
    funext a; match a with
    | ⟨0, _⟩ => rfl
    | ⟨1, _⟩ => rfl
  rw [hl, hr, val_main_v47_apply, Ideal.maximumf_def, val_main_call1_v0_apply, val_main_call1_cst_apply,
    Ideal.ofBits_def, Ideal.ofBits_zero_f32, layer1_read]

/-- A second-layer message at channel `j`: the source row's feature times the factors of the two end nodes. -/
theorem msg2_read (x0 : FVec Ideal S50000x768 .f32) (x1 : IVec S2x800000 32) (x2 : FVec Ideal S768x256 .f32)
    (x3 : FVec Ideal S256 .f32) (x4 : FVec Ideal S256x256 .f32) (e : Fin 850000) (j : Fin 256) :
    val_main_v84 (F := Ideal) x0 x1 x2 x3 x4 (ix2 e j)
      = val_main_v48 (F := Ideal) x0 x1 x2 x3 x4 (ix2 (row (val_main_v80 (F := Ideal) x1 (ix2 e (0 : Fin 1)))) j)
        * (val_main_v59 (F := Ideal) x1 (ix1 (row (val_main_v65 (F := Ideal) x1 (ix2 e (0 : Fin 1)))))
          * val_main_v59 (F := Ideal) x1 (ix1 (row (val_main_v72 (F := Ideal) x1 (ix2 e (0 : Fin 1)))))) := by
  rw [val_main_v84_apply, Ideal.mulf_def, val_main_v83_apply, val_main_v82_apply, val_main_v74_apply, Ideal.mulf_def]
  have hi : idx_main_v82 (idx_main_v83 (ix2 e j)) = ix1 e := by
    funext a; match a with
    | ⟨0, _⟩ => rfl
  rw [hi]
  unfold val_main_v81 val_main_v66 val_main_v73
  rw [rows_read, flat_read, flat_read]

/-- The reference's result at node `n`, channel `j`: two layers of aggregation, each message scaled by the factors of
    its two end nodes, the bias added after the sum, the first layer's result clipped at zero and multiplied by the
    second weight matrix. -/
theorem ref_apply (x0 : FVec Ideal S50000x768 .f32) (x1 : IVec S2x800000 32) (x2 : FVec Ideal S768x256 .f32)
    (x3 : FVec Ideal S256 .f32) (x4 : FVec Ideal S256x256 .f32) (x5 : FVec Ideal S256 .f32) (n : Fin 50000) (j : Fin 256) :
    val_main_v90 (F := Ideal) x0 x1 x2 x3 x4 x5 (ix2 n j)
      = refLayer (val_main_v86 (F := Ideal) x1) (val_main_v80 (F := Ideal) x1) (val_main_v65 (F := Ideal) x1)
          (val_main_v72 (F := Ideal) x1) (val_main_v59 (F := Ideal) x1)
          (fun r j' => ∑ k : Fin 256,
            max (refLayer (val_main_v42 (F := Ideal) x1) (val_main_v36 (F := Ideal) x1) (val_main_v21 (F := Ideal) x1)
                  (val_main_v28 (F := Ideal) x1) (val_main_v15 (F := Ideal) x1)
                  (fun r' k' => ∑ i : Fin 768, x0 (ix2 r' i) * x2 (ix2 i k')) x3 r k) 0
              * x4 (ix2 k j'))
          x5 n j := by
  rw [val_main_v90_apply, Ideal.addf_def, val_main_v89_apply, val_main_v88_apply]
  have hb : idx_main_v88 (idx_main_v89 (ix2 n j)) = ix1 j := by
    funext a; match a with
    | ⟨0, _⟩ => rfl
  rw [hb, refLayer]
  refine congrArg (fun t => t + x5 (ix1 j)) ?_
  unfold val_main_v87
  refine scatter_read _ _ _ _ n j ?_ fun e => ?_
  · rw [val_main_v85_apply, val_main_cst_19_apply, Ideal.ofBits_def, Ideal.ofBits_zero_f32]
  · rw [msg2_read, v48_read]

end Cert.ReferenceIdeal.At

end
-- ==== Proof.RefFacts.lean ====
/-
  What the bridge needs to know about the reference's index arrays and its normalising vector.

  The reference builds the message index arrays and the vector of node factors once per layer, by the same
  operations on the same operands: the copies are one array each. A message whose raw destination index is the number
  of a node names that node also through the wrapped-and-clamped index used to gather the destination's factor (a
  nonnegative index is not wrapped; a node's number is its own clamp). And every node factor is a guarded inverse
  square root — `1/√deg` where the degree is positive, else `0` — hence lies in `[0, ⊤)` whatever the degree is.
-/
import proofs.«139254_j68693706932806_2_alg».proof.Proof.RefReadP
import proofs.«139254_j68693706932806_2_alg».proof.Proof.Formula
import proofs.«139254_j68693706932806_2_alg».proof.Proof.Algebra
import proofs.«139254_j68693706932806_2_alg».proof.Proof.LibGatherRows
import proofs.«139254_j68693706932806_2_alg».proof.Proof.LibGatherFlat
import proofs.«139254_j68693706932806_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Facts

open Cert.ReferenceIdeal Cert.ReferenceIdeal.ReadP Cert.GCN Cert.Lib Idealize.ShloMosaic Idealize.ShloMosaic.ValueIdx

/-- The index arrays and the normalising vector that the reference computes more than once are one array each. -/
theorem v36_eq (x1 : IVec S2x800000 32) : val_main_v36 (F := Ideal) x1 = val_main_v21 (F := Ideal) x1 := by
  rfl
theorem v65_eq (x1 : IVec S2x800000 32) : val_main_v65 (F := Ideal) x1 = val_main_v21 (F := Ideal) x1 := by
  rfl
theorem v80_eq (x1 : IVec S2x800000 32) : val_main_v80 (F := Ideal) x1 = val_main_v21 (F := Ideal) x1 := by
  rfl
theorem v72_eq (x1 : IVec S2x800000 32) : val_main_v72 (F := Ideal) x1 = val_main_v28 (F := Ideal) x1 := by
  rfl
theorem v86_eq (x1 : IVec S2x800000 32) : val_main_v86 (F := Ideal) x1 = val_main_v42 (F := Ideal) x1 := by
  rfl
theorem v59_eq (x1 : IVec S2x800000 32) : val_main_v59 (F := Ideal) x1 = val_main_v15 (F := Ideal) x1 := by
  rfl

/-- A message that lands on node `n` (its raw destination index, read signed, is `n`) names `n` also through the
    wrapped-and-clamped destination index that the reference gathers the destination's factor with: a nonnegative
    index is not wrapped, and a node number is its own clamp. -/
theorem row_dst_of_hit (x1 : IVec S2x800000 32) (e : Fin 850000) (n : Fin 50000)
    (h : (val_main_v42 (F := Ideal) x1 (ix2 e (0 : Fin 1))).toInt = (n.val : Int)) :
    row (val_main_v28 (F := Ideal) x1 (ix2 e (0 : Fin 1))) = n := by
  -- both arrays read the raw destination indices at the same rank-1 index
  rw [val_main_v42_apply] at h
  rw [val_main_v28_apply, val_main_v27_apply, val_main_v24_apply, val_main_v23_apply, val_main_c_4_apply]
  have hi : idx_main_v28 (ix2 e (0 : Fin 1)) = idx_main_v42 (ix2 e (0 : Fin 1)) := rfl
  rw [hi]
  generalize val_main_v7 (F := Ideal) x1 (idx_main_v42 (ix2 e (0 : Fin 1))) = w at h ⊢
  -- the signed value of `w` is `n ≥ 0`, so `w <ₛ 0` is false and the select keeps `w`
  have hn : ¬ ((n.val : Int) < 0) := by omega
  have hc : IntOp.cmpi .slt w 0#32 = 0#1 := by
    show BitVec.ofBool (decide (w.toInt < (0#32 : BitVec 32).toInt)) = 0#1
    have h0 : (0#32 : BitVec 32).toInt = 0 := by decide
    rw [h0, h, decide_eq_false hn]
    rfl
  rw [hc, select_zero]
  exact row_of_toInt_eq w n h

/-- Every node's normalising factor (the guarded inverse square root of its degree) lies in `[0, ⊤)`. -/
theorem dinv_bounds (x1 : IVec S2x800000 32) (r : Fin 50000) :
    0 ≤ val_main_v15 (F := Ideal) x1 (ix1 r) ∧ val_main_v15 (F := Ideal) x1 (ix1 r) ≠ ⊤ := by
  rw [val_main_v15_apply, val_main_v13_apply, val_main_v14_apply, val_main_call0_v1_apply, val_main_call0_v0_apply,
    val_main_cst_2_apply, val_main_v12_apply, val_main_cst_1_apply]
  -- the degree at this node is an arbitrary extended real `y`
  generalize val_main_v11 (F := Ideal) x1 (ix1 r) = y
  -- over the extended reals the comparison is the order's, the inverse square root is `Ideal.rsqrt`, the zero literal is 0
  show 0 ≤ Scalar.select (Ideal.cmp .ogt y (Ideal.ofBits .f32 0x00000000#32)) (Ideal.rsqrt y) (Ideal.ofBits .f32 0x00000000#32) ∧
    Scalar.select (Ideal.cmp .ogt y (Ideal.ofBits .f32 0x00000000#32)) (Ideal.rsqrt y) (Ideal.ofBits .f32 0x00000000#32) ≠ ⊤
  rw [Ideal.ofBits_zero_f32]
  -- the entry is `if 0 < y then rsqrt y else 0`
  have hs : Scalar.select (Ideal.cmp .ogt y 0) (Ideal.rsqrt y) (0 : EReal) = if 0 < y then Ideal.rsqrt y else 0 := by
    by_cases hy : (0 : EReal) < y
    · rw [if_pos hy]
      show Scalar.select (BitVec.ofBool (decide ((0 : EReal) < y))) _ _ = _
      rw [decide_eq_true hy]
      exact select_one _ _
    · rw [if_neg hy]
      show Scalar.select (BitVec.ofBool (decide ((0 : EReal) < y))) _ _ = _
      rw [decide_eq_false hy]
      exact select_zero _ _
  rw [hs]
  exact guarded_rsqrt_bounds y

end Cert.ReferenceIdeal.Facts

end
-- ==== Proof.Bridge.lean ====
/-
  The kernel program's result and the reference's result are one function of the arguments.

  At node `n`, channel `j` both are two layers of "sum over the messages landing on the node". The reference scales
  each message by the factors of BOTH its end nodes before the sum and adds the bias after it. The kernel program scales
  each feature row by its own node's factor inside the dense stages, sums already-scaled rows, and scales the sum by the
  destination's factor afterwards (in the next dense stage's prologue for the first layer, in the last host operations
  for the second). The two agree because every factor lies in `[0, ⊤)` — so it distributes over the sum of extended
  reals whatever infinities the features hold — and because a message that lands on node `n` carries, as its
  destination factor in the reference, exactly the factor of `n`.
-/
import proofs.«139254_j68693706932806_2_alg».proof.Proof.KHost
import proofs.«139254_j68693706932806_2_alg».proof.Proof.RefAt
import proofs.«139254_j68693706932806_2_alg».proof.Proof.RefFacts
import proofs.«139254_j68693706932806_2_alg».proof.Proof.LibKeepdims

set_option maxRecDepth 16384

noncomputable section

open scoped BigOperators

namespace Cert.Bridge

open Cert.KernelIdeal Cert.KernelIdeal.Gen Cert.KernelIdeal.KV Cert.GCN Cert.Lib Idealize.ShloMosaic Idealize.ShloMosaic.ValueIdx
open Cert.ReferenceIdeal.ReadP Cert.ReferenceIdeal.At Cert.ReferenceIdeal.Facts

variable (x0 : FVec Ideal S50000x768 .f32) (x1 : IVec S2x800000 32) (x2 : FVec Ideal S768x256 .f32)
  (x3 : FVec Ideal S256 .f32) (x4 : FVec Ideal S256x256 .f32) (x5 : FVec Ideal S256 .f32)

/-! ## The kernel program's pieces at an index -/

/-- The column of factors at row `r` is the normalising vector's entry `r`. -/
theorem D_apply (r : Fin 50000) : D x1 (ix2 r (0 : Fin 1)) = val_main_v15 (F := Ideal) x1 (ix1 r) := by
  unfold D
  exact shapeCast_a_a1_apply _ _ r 0

/-- Gather-then-sum at `(r, k)`: the sum over the messages landing on `r` of the source row's entry. -/
theorem gs_apply (H : FVec Ideal S50000x256 .f32) (r : Fin 50000) (k : Fin 256) :
    gs H x1 (ix2 r k)
      = agg (val_main_v42 (F := Ideal) x1) r (fun e => H (ix2 (row (val_main_v36 (F := Ideal) x1 (ix2 e (0 : Fin 1)))) k)) := by
  unfold gs
  refine scatter_read _ _ _ _ r k ?_ fun e => ?_
  · rw [val_main_v41_apply, val_main_cst_8_apply, Ideal.ofBits_def, Ideal.ofBits_zero_f32]
  · exact rows_read H _ e k

/-- The first dense stage at `(r, k)`: the reference's product entry times the node's factor. -/
theorem H1_apply (r : Fin 50000) (k : Fin 256) :
    H1 x0 x1 x2 (ix2 r k) = (∑ i : Fin 768, x0 (ix2 r i) * x2 (ix2 i k)) * val_main_v15 (F := Ideal) x1 (ix1 r) := by
  unfold H1
  rw [G0_apply]
  unfold g0 T1
  rw [D_apply]
  rfl

/-- The bias row at `(0, k)`. -/
theorem bias_apply (k : Fin 256) : shapeCast S1x256 x3 shapeCasts_S256_S1x256 (ix2 (0 : Fin 1) k) = x3 (ix1 k) :=
  shapeCast_apply x3 _ _ _ (by
    rw [Shape.rowMajor_val_two, Shape.rowMajor_val_one]
    show k.val = 0 * 256 + k.val
    omega)

/-- The broadcast of the column of factors along the channels, at `(n, j)`. -/
theorem bcastD_apply (n : Fin 50000) (j : Fin 256) :
    broadcastInDim S50000x256 ![0, 1] bcast_S50000x1_S50000x256_0_1 (D x1) (ix2 n j) = D x1 (ix2 n (0 : Fin 1)) :=
  broadcastInDim_apply _ bcast_S50000x1_S50000x256_0_1 (D x1) (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- The broadcast of the second bias along the nodes, at `(n, j)`. -/
theorem bcastB_apply (n : Fin 50000) (j : Fin 256) :
    broadcastInDim S50000x256 ![0, 1] bcast_S1x256_S50000x256_0_1 (broadcastInDim S1x256 ![1] bcast_S256_S1x256_1 x5) (ix2 n j)
      = x5 (ix1 j) :=
  (broadcastInDim_apply _ bcast_S1x256_S50000x256_0_1 (broadcastInDim S1x256 ![1] bcast_S256_S1x256_1 x5) (ix2 n j)
      (ix2 (0 : Fin 1) j) (fun a => match a with
    | ⟨0, _⟩ => by show 0 = if (1 : Nat) = 1 then 0 else n.val; rw [if_pos rfl]
    | ⟨1, _⟩ => by show j.val = if (256 : Nat) = 1 then 0 else j.val; rw [if_neg (by decide)])).trans
  (broadcastInDim_apply _ bcast_S256_S1x256_1 x5 (ix2 (0 : Fin 1) j) (ix1 j) (fun a => match a with
    | ⟨0, _⟩ => by show j.val = if (256 : Nat) = 1 then 0 else j.val; rw [if_neg (by decide)]))

/-! ## The two layers -/

/-- FIRST LAYER: the sum of the already-scaled rows landing on node `r`, scaled by the factor of `r`, plus the bias, is
    the reference's first layer at `(r, k)`: the factor of `r` distributes over the sum, and on each message that
    lands on `r` it is the destination factor the reference multiplies by. -/
theorem layer1_eq (r : Fin 50000) (k : Fin 256) :
    gs (H1 x0 x1 x2) x1 (ix2 r k) * val_main_v15 (F := Ideal) x1 (ix1 r) + x3 (ix1 k)
      = refLayer (val_main_v42 (F := Ideal) x1) (val_main_v36 (F := Ideal) x1) (val_main_v21 (F := Ideal) x1) (val_main_v28 (F := Ideal) x1) (val_main_v15 (F := Ideal) x1)
          (fun r' k' => ∑ i : Fin 768, x0 (ix2 r' i) * x2 (ix2 i k')) x3 r k := by
  rw [gs_apply]
  unfold refLayer
  refine congrArg (fun t => t + x3 (ix1 k)) ?_
  unfold agg
  simp only [H1_apply]
  rw [v36_eq]
  exact scatter_scale _ _ _ _ _ (dinv_bounds x1 r).1 (dinv_bounds x1 r).2
    (fun e he => by rw [row_dst_of_hit x1 e r he])

/-- The second dense stage at `(r, j)`: the reference's second product entry times the node's factor. -/
theorem H2_apply (r : Fin 50000) (j : Fin 256) :
    H2 x0 x1 x2 x3 x4 (ix2 r j)
      = (∑ k : Fin 256, max (refLayer (val_main_v42 (F := Ideal) x1) (val_main_v36 (F := Ideal) x1) (val_main_v21 (F := Ideal) x1) (val_main_v28 (F := Ideal) x1) (val_main_v15 (F := Ideal) x1)
          (fun r' k' => ∑ i : Fin 768, x0 (ix2 r' i) * x2 (ix2 i k')) x3 r k) 0 * x4 (ix2 k j)) * val_main_v15 (F := Ideal) x1 (ix1 r) := by
  unfold H2
  rw [G1_apply]
  unfold g1 T2
  rw [D_apply]
  refine congrArg (fun t => t * val_main_v15 (F := Ideal) x1 (ix1 r)) (Finset.sum_congr rfl fun k _ => ?_)
  rw [bias_apply, layer1_eq, truncf_apply]

/-- SECOND LAYER AND THE RESULT: at every node and channel the kernel program's result is the reference's. -/
theorem kout_apply (n : Fin 50000) (j : Fin 256) :
    KOut x0 x1 x2 x3 x4 x5 (ix2 n j) = val_main_v90 (F := Ideal) x0 x1 x2 x3 x4 x5 (ix2 n j) := by
  rw [ref_apply]
  unfold KOut
  rw [addf_apply, mulf_apply, gs_apply, bcastD_apply, D_apply, bcastB_apply]
  unfold refLayer
  refine congrArg (fun t => t + x5 (ix1 j)) ?_
  unfold agg
  simp only [H2_apply]
  rw [v86_eq, v80_eq, v65_eq, v72_eq, v59_eq, v36_eq]
  exact scatter_scale _ _ _ _ _ (dinv_bounds x1 n).1 (dinv_bounds x1 n).2
    (fun e he => by rw [row_dst_of_hit x1 e n he])

/-- The two results are one array. -/
theorem kout_eq : KOut x0 x1 x2 x3 x4 x5 = val_main_v90 (F := Ideal) x0 x1 x2 x3 x4 x5 := by
  funext i
  obtain ⟨n, j, rfl⟩ : ∃ (n : Fin 50000) (j : Fin 256), i = ix2 n j := ⟨i 0, i 1, eq_ix2 i⟩
  exact kout_apply x0 x1 x2 x3 x4 x5 n j

end Cert.Bridge

end
-- ==== Proof.lean ====
/-
  A two-layer graph convolution: the tiled kernel program against the plain reference, over the extended reals.

  Both programs take node features `x : [50000, 768]`, an edge list `[2, 800000]`, and two weight matrices and biases,
  and return `[50000, 256]`. Each layer is  out[d] = Σ over the messages e landing on d of  dinv[s_e] · dinv[d] · (h W)[s_e]  + b,
  the messages being the edges and one self-loop per node, `dinv` the guarded inverse square root of the in-degree.
  The reference multiplies each gathered row by both factors before the sum. The kernel program computes the two matrix
  products in two tiled regions (25 blocks of 2000 rows; the 16-bit narrowing of the operands is the identity on the
  extended reals), folds the source factor into each region's epilogue and the destination factor into the next stage,
  and leaves the gather and the per-destination sum to the same host operations as the reference.

  The proof: each region's output array is one whole-array function of its inputs (KRegion0, KRegion1, over the
  generated class-A frames); the program's run names its result buffer, which is walked back through the host stretches
  to one function `KOut` of the arguments (KRun, KHost), the index arrays and the normalising vector being literally the
  reference's; the reference's result is read at an index (RefAt, over the reference's staged values); and the two are
  equal entry by entry because a factor in [0, ⊤) distributes over a sum of extended reals (Algebra, Bridge). The
  precondition is not needed: no step asks the inputs to be finite. The frames of the two kernel programs are the
  generated ones; the reference's frame is its run with the result dropped; the idealization rewrote nothing.
-/
import proofs.«139254_j68693706932806_2_alg».proof.Defs
import proofs.«139254_j68693706932806_2_alg».proof.Proof.Gen.Kernel
import proofs.«139254_j68693706932806_2_alg».proof.Proof.Gen.Kernel.Skeleton
import proofs.«139254_j68693706932806_2_alg».proof.Proof.Gen.Kernel.Launch
import proofs.«139254_j68693706932806_2_alg».proof.Proof.Gen.Kernel.Points
import proofs.«139254_j68693706932806_2_alg».proof.Proof.Gen.Kernel.Frame
import proofs.«139254_j68693706932806_2_alg».proof.Proof.Gen.KernelIdeal
import proofs.«139254_j68693706932806_2_alg».proof.Proof.Gen.KernelIdeal.Skeleton
import proofs.«139254_j68693706932806_2_alg».proof.Proof.Gen.KernelIdeal.Launch
import proofs.«139254_j68693706932806_2_alg».proof.Proof.Gen.KernelIdeal.Points
import proofs.«139254_j68693706932806_2_alg».proof.Proof.Gen.KernelIdeal.Frame
import proofs.«139254_j68693706932806_2_alg».proof.Proof.Gen.ReferenceIdeal
import proofs.«139254_j68693706932806_2_alg».proof.Proof.Gen.Pre_finite_inputs
import proofs.«139254_j68693706932806_2_alg».proof.Proof.RefReadP
import proofs.«139254_j68693706932806_2_alg».proof.Proof.KRegion0
import proofs.«139254_j68693706932806_2_alg».proof.Proof.KRegion1
import proofs.«139254_j68693706932806_2_alg».proof.Proof.KHost
import proofs.«139254_j68693706932806_2_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel program's
    at `KOut` of the arguments, the reference's at its composed term, which is the same function entry by entry. -/
theorem algebraic : Cert.algebraic_KernelIdeal_ReferenceIdeal := by
  intro m ρ m' ρ' _ hagree
  refine ⟨_, Cert.KernelIdeal.KV.run m ρ Cert.KernelIdeal.Region0.final0 Cert.KernelIdeal.Region1.final1, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]
  exact (Cert.Bridge.kout_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
